-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1119744x128 : Shape := ⟨2, ![1119744, 128]⟩
abbrev S995328 : Shape := ⟨1, ![995328]⟩
abbrev S110592 : Shape := ⟨1, ![110592]⟩
abbrev S12288 : Shape := ⟨1, ![12288]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1119744x128 : S_.BroadcastsInDim S1119744x128 (![] : Fin 0 → Fin S1119744x128.rank)
  reducesTo_S1119744x128_S_d0_1 : S1119744x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128x1 .f32 := Host.absf main_arg17
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg18
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg14 : FVec F S128 .f32) (main_arg15 : FVec F S128x128 .f32) (main_arg16 : FVec F S128 .f32) (main_arg17 : FVec F S128x1 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S1119744x128 .f32) (main_arg1 : IVec S995328 32) (main_arg2 : IVec S110592 32) (main_arg3 : IVec S12288 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S1119744x128 .f32 := Host.absf main_arg0
  let main_cst : FVec F S_ .f32 := constant S_ .f32 0x7F800000#32
  let main_v1 : FVec F S1119744x128 .f32 := broadcastInDim S1119744x128 ![] bcast_S_S1119744x128 main_cst
  let main_v2 : IVec S1119744x128 1 := cmpf .olt main_v0 main_v1
  let main_c : IVec S_ 1 := constantI S_ 1 1#1
  let main_v3 : IVec S_ 1 := (fun x v => Host.reduce IntOp.andi x v reducesTo_S1119744x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S1119744x128 : Shape := ⟨2, ![1119744, 128]⟩
abbrev S995328 : Shape := ⟨1, ![995328]⟩
abbrev S110592 : Shape := ⟨1, ![110592]⟩
abbrev S12288 : Shape := ⟨1, ![12288]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S995328x1 : Shape := ⟨2, ![995328, 1]⟩
abbrev S995328x128 : Shape := ⟨2, ![995328, 128]⟩
abbrev S124416x8x128 : Shape := ⟨3, ![124416, 8, 128]⟩
abbrev S124416x128 : Shape := ⟨2, ![124416, 128]⟩
abbrev S1x128 : Shape := ⟨2, ![1, 128]⟩
abbrev S1536x128 : Shape := ⟨2, ![1536, 128]⟩
abbrev S1536x8x128 : Shape := ⟨3, ![1536, 8, 128]⟩
abbrev S110592x1 : Shape := ⟨2, ![110592, 1]⟩
abbrev S110592x128 : Shape := ⟨2, ![110592, 128]⟩
abbrev S13824x8x128 : Shape := ⟨3, ![13824, 8, 128]⟩
abbrev S13824x128 : Shape := ⟨2, ![13824, 128]⟩
abbrev S12288x1 : Shape := ⟨2, ![12288, 1]⟩
abbrev S12288x128 : Shape := ⟨2, ![12288, 128]⟩
abbrev S1x1 : Shape := ⟨2, ![1, 1]⟩
abbrev S512x1 : Shape := ⟨2, ![512, 1]⟩
abbrev S512x128 : Shape := ⟨2, ![512, 128]⟩

abbrev nBuf : Space → Nat
  | .hbm => 63
  | .vmem => 33
  | .smem => 0
  | _ => 0

abbrev bufTy : (tb : Table) → Fin (tcTables nBuf tb) → BufTy
  | .hbm, ⟨0, _⟩ => ⟨S1119744x128, .f32⟩
  | .hbm, ⟨1, _⟩ => ⟨S995328, .i32⟩
  | .hbm, ⟨2, _⟩ => ⟨S110592, .i32⟩
  | .hbm, ⟨3, _⟩ => ⟨S12288, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S_, .i32⟩
  | .hbm, ⟨20, _⟩ => ⟨S995328, .i32⟩
  | .hbm, ⟨21, _⟩ => ⟨S995328, .i1⟩
  | .hbm, ⟨22, _⟩ => ⟨S_, .i32⟩
  | .hbm, ⟨23, _⟩ => ⟨S995328, .i32⟩
  | .hbm, ⟨24, _⟩ => ⟨S995328, .i32⟩
  | .hbm, ⟨25, _⟩ => ⟨S995328, .i32⟩
  | .hbm, ⟨26, _⟩ => ⟨S995328x1, .i32⟩
  | .hbm, ⟨27, _⟩ => ⟨S995328x128, .f32⟩
  | .hbm, ⟨28, _⟩ => ⟨S124416x8x128, .f32⟩
  | .hbm, ⟨29, _⟩ => ⟨S124416x128, .f32⟩
  | .hbm, ⟨30, _⟩ => ⟨S1x128, .f32⟩
  | .hbm, ⟨31, _⟩ => ⟨S124416x128, .bf16⟩
  | .hbm, ⟨32, _⟩ => ⟨S_, .i32⟩
  | .hbm, ⟨33, _⟩ => ⟨S110592, .i32⟩
  | .hbm, ⟨34, _⟩ => ⟨S110592, .i1⟩
  | .hbm, ⟨35, _⟩ => ⟨S_, .i32⟩
  | .hbm, ⟨36, _⟩ => ⟨S110592, .i32⟩
  | .hbm, ⟨37, _⟩ => ⟨S110592, .i32⟩
  | .hbm, ⟨38, _⟩ => ⟨S110592, .i32⟩
  | .hbm, ⟨39, _⟩ => ⟨S110592x1, .i32⟩
  | .hbm, ⟨40, _⟩ => ⟨S110592x128, .bf16⟩
  | .hbm, ⟨41, _⟩ => ⟨S13824x8x128, .bf16⟩
  | .hbm, ⟨42, _⟩ => ⟨S13824x128, .bf16⟩
  | .hbm, ⟨43, _⟩ => ⟨S1x128, .f32⟩
  | .hbm, ⟨44, _⟩ => ⟨S13824x128, .bf16⟩
  | .hbm, ⟨45, _⟩ => ⟨S_, .i32⟩
  | .hbm, ⟨46, _⟩ => ⟨S12288, .i32⟩
  | .hbm, ⟨47, _⟩ => ⟨S12288, .i1⟩
  | .hbm, ⟨48, _⟩ => ⟨S_, .i32⟩
  | .hbm, ⟨49, _⟩ => ⟨S12288, .i32⟩
  | .hbm, ⟨50, _⟩ => ⟨S12288, .i32⟩
  | .hbm, ⟨51, _⟩ => ⟨S12288, .i32⟩
  | .hbm, ⟨52, _⟩ => ⟨S12288x1, .i32⟩
  | .hbm, ⟨53, _⟩ => ⟨S12288x128, .bf16⟩
  | .hbm, ⟨54, _⟩ => ⟨S1536x8x128, .bf16⟩
  | .hbm, ⟨55, _⟩ => ⟨S1536x128, .bf16⟩
  | .hbm, ⟨56, _⟩ => ⟨S1x128, .f32⟩
  | .hbm, ⟨57, _⟩ => ⟨S1536x128, .f32⟩
  | .hbm, ⟨58, _⟩ => ⟨S1x128, .f32⟩
  | .hbm, ⟨59, _⟩ => ⟨S1x128, .f32⟩
  | .hbm, ⟨60, _⟩ => ⟨S1x1, .f32⟩
  | .hbm, ⟨61, _⟩ => ⟨S512x1, .f32⟩
  | .hbm, ⟨62, _⟩ => ⟨S512x1, .f32⟩
  | .local _ .vmem, ⟨0, _⟩ => ⟨S1536x128, .f32⟩
  | .local _ .vmem, ⟨1, _⟩ => ⟨S1536x128, .f32⟩
  | .local _ .vmem, ⟨2, _⟩ => ⟨S1536x8x128, .f32⟩
  | .local _ .vmem, ⟨3, _⟩ => ⟨S1536x8x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1536x128, .bf16⟩
  | .local _ .vmem, ⟨8, _⟩ => ⟨S1536x128, .bf16⟩
  | .local _ .vmem, ⟨9, _⟩ => ⟨S1536x128, .bf16⟩
  | .local _ .vmem, ⟨10, _⟩ => ⟨S1536x128, .bf16⟩
  | .local _ .vmem, ⟨11, _⟩ => ⟨S1536x8x128, .bf16⟩
  | .local _ .vmem, ⟨12, _⟩ => ⟨S1536x8x128, .bf16⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S1536x128, .bf16⟩
  | .local _ .vmem, ⟨17, _⟩ => ⟨S1536x128, .bf16⟩
  | .local _ .vmem, ⟨18, _⟩ => ⟨S1536x128, .bf16⟩
  | .local _ .vmem, ⟨19, _⟩ => ⟨S1536x8x128, .bf16⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S1536x128, .f32⟩
  | .local _ .vmem, ⟨24, _⟩ => ⟨S1536x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S128x1, .f32⟩
  | .local _ .vmem, ⟨30, _⟩ => ⟨S1x1, .f32⟩
  | .local _ .vmem, ⟨31, _⟩ => ⟨S512x1, .f32⟩
  | .local _ .vmem, ⟨32, _⟩ => ⟨S512x1, .f32⟩
  | _, _ => ⟨S1119744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32

abbrev nD : Nat := 1
abbrev τ : Topo := Topo.v7x

variable {F : FTy → Type} [FloatOps F]

abbrev grid0 : Pipeline.Grid := ⟨1, ![81], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1536x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1536x8x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1536x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1536x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1536x8x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1536x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1536x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S512x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

class Facts₀ : Prop where
  bcast_S_S995328 : S_.BroadcastsInDim S995328 (![] : Fin 0 → Fin S995328.rank)
  bcast_S995328_S995328x1_0 : S995328.BroadcastsInDim S995328x1 (![0] : Fin 1 → Fin S995328x1.rank)
  shapeCasts_S995328x128_S124416x8x128 : S995328x128.ShapeCasts S124416x8x128
  slices_S1119744x128_S124416x128_0_0 : S1119744x128.Slices ![0, 0] S124416x128
  shapeCasts_S128_S1x128 : S128.ShapeCasts S1x128
  inb_S1536x8x128_S1536x8x128_0_0_0 : ∀ a, (![0, 0, 0] : Fin 3 → Nat) a + S1536x8x128.size a ≤ S1536x8x128.size a
  h_S1536x8x128 : 0 < S1536x8x128.numel
  shapeCasts_S1536x8x128_S1536x8x128 : S1536x8x128.ShapeCasts S1536x8x128
  reduces_S1536x8x128_S1536x128 : S1536x8x128.Reduces [1] S1536x128
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1536x128 : S1x128.Broadcasts S1536x128
  packedbf16_S1536x128_S1536x128_0_0 : (Rect.unit (s := S1536x128) ![0, 0] S1536x128.size inb_S1536x128_S1536x128_0_0).PackedRows (EltTy.packing .bf16)
  bcast_S_S110592 : S_.BroadcastsInDim S110592 (![] : Fin 0 → Fin S110592.rank)
  bcast_S110592_S110592x1_0 : S110592.BroadcastsInDim S110592x1 (![0] : Fin 1 → Fin S110592x1.rank)
  shapeCasts_S110592x128_S13824x8x128 : S110592x128.ShapeCasts S13824x8x128
  slices_S124416x128_S13824x128_0_0 : S124416x128.Slices ![0, 0] S13824x128
  bcast_S_S12288 : S_.BroadcastsInDim S12288 (![] : Fin 0 → Fin S12288.rank)
  bcast_S12288_S12288x1_0 : S12288.BroadcastsInDim S12288x1 (![0] : Fin 1 → Fin S12288x1.rank)
  shapeCasts_S12288x128_S1536x8x128 : S12288x128.ShapeCasts S1536x8x128
  slices_S13824x128_S1536x128_0_0 : S13824x128.Slices ![0, 0] S1536x128
  shapeCasts_S1_S1x1 : S1.ShapeCasts S1x1
  slices_S1536x128_o0_0_S512x128 : S1536x128.Slices ![0, 0] S512x128
  slices_S1536x128_o512_0_S512x128 : S1536x128.Slices ![512, 0] S512x128
  slices_S1536x128_o1024_0_S512x128 : S1536x128.Slices ![1024, 0] S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S512x128 : S1x128.Broadcasts S512x128
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S1119744x128_S995328x1_S995328x128_1_0_n_n_0_1_1128_wf : GatherDims.WF S1119744x128 S995328x1 S995328x128 [1] [0] [] [0] [] 1 ![1, 128]
  dot_S1536x128_S128x128_S1536x128_1_0_0_1_n_n_wf : DotDims.WF S1536x128 S128x128 S1536x128 [1] [0] [0] [1] [] []
  gather_S124416x128_S110592x1_S110592x128_1_0_n_n_0_1_1128_wf : GatherDims.WF S124416x128 S110592x1 S110592x128 [1] [0] [] [0] [] 1 ![1, 128]
  gather_S13824x128_S12288x1_S12288x128_1_0_n_n_0_1_1128_wf : GatherDims.WF S13824x128 S12288x1 S12288x128 [1] [0] [] [0] [] 1 ![1, 128]
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S124416x128.size a
  hwx0_0 : ∀ i : grid0.Coords, EltTy.bits .f32 = 32 ∨ (Rect.block (s := S124416x128) S1536x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x8x128.size a ≤ S124416x8x128.size a
  hwx0_1 : ∀ i : grid0.Coords, EltTy.bits .f32 = 32 ∨ (Rect.block (s := S124416x8x128) S1536x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1536x128.size a ≤ S124416x128.size a
  hwx0_5 : ∀ i : grid0.Coords, EltTy.bits .bf16 = 32 ∨ (Rect.block (s := S124416x128) S1536x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1536x128.size a ≤ S13824x128.size a
  hwx1_0 : ∀ i : grid1.Coords, EltTy.bits .bf16 = 32 ∨ (Rect.block (s := S13824x128) S1536x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1536x8x128.size a ≤ S13824x8x128.size a
  hwx1_1 : ∀ i : grid1.Coords, EltTy.bits .bf16 = 32 ∨ (Rect.block (s := S13824x8x128) S1536x8x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1536x128.size a ≤ S13824x128.size a
  hwx1_5 : ∀ i : grid1.Coords, EltTy.bits .bf16 = 32 ∨ (Rect.block (s := S13824x128) S1536x128.size (cc1_transform_5 i) (hinb1_5 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1536x128.size a ≤ S1536x128.size a
  hwx2_0 : ∀ i : grid2.Coords, EltTy.bits .bf16 = 32 ∨ (Rect.block (s := S1536x128) S1536x128.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1536x8x128.size a ≤ S1536x8x128.size a
  hwx2_1 : ∀ i : grid2.Coords, EltTy.bits .bf16 = 32 ∨ (Rect.block (s := S1536x8x128) S1536x8x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1536x128.size a ≤ S1536x128.size a
  hwx2_5 : ∀ i : grid2.Coords, EltTy.bits .f32 = 32 ∨ (Rect.block (s := S1536x128) S1536x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1536x128.size a ≤ S1536x128.size a
  hwx3_0 : ∀ i : grid3.Coords, EltTy.bits .f32 = 32 ∨ (Rect.block (s := S1536x128) S1536x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S512x1.size a
  hwx3_7 : ∀ i : grid3.Coords, EltTy.bits .f32 = 32 ∨ (Rect.block (s := S512x1) S512x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S512x1.size a ≤ S512x1.size a
  hwx3_8 : ∀ i : grid3.Coords, EltTy.bits .f32 = 32 ∨ (Rect.block (s := S512x1) S512x1.size (cc3_transform_8 i) (hinb3_8 i)).WholeWords (EltTy.packing .f32)

variable [Facts₀]

def gather_S1119744x128_S995328x1_S995328x128_1_0_n_n_0_1_1128 : GatherDims S1119744x128 S995328x1 S995328x128 where
  offsetDims := [1]
  collapsedSliceDims := [0]
  operandBatchingDims := []
  startIndicesBatchingDims := []
  startIndexMap := [0]
  indexVectorDim := 1
  sliceSizes := ![1, 128]
  wf := gather_S1119744x128_S995328x1_S995328x128_1_0_n_n_0_1_1128_wf
def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def gather_S124416x128_S110592x1_S110592x128_1_0_n_n_0_1_1128 : GatherDims S124416x128 S110592x1 S110592x128 where
  offsetDims := [1]
  collapsedSliceDims := [0]
  operandBatchingDims := []
  startIndicesBatchingDims := []
  startIndexMap := [0]
  indexVectorDim := 1
  sliceSizes := ![1, 128]
  wf := gather_S124416x128_S110592x1_S110592x128_1_0_n_n_0_1_1128_wf
def gather_S13824x128_S12288x1_S12288x128_1_0_n_n_0_1_1128 : GatherDims S13824x128 S12288x1 S12288x128 where
  offsetDims := [1]
  collapsedSliceDims := [0]
  operandBatchingDims := []
  startIndicesBatchingDims := []
  startIndexMap := [0]
  indexVectorDim := 1
  sliceSizes := ![1, 128]
  wf := gather_S13824x128_S12288x1_S12288x128_1_0_n_n_0_1_1128_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v8) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1536x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1536x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S1536x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1536x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1536x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30) S1536x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1536x8x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1536x128.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S1536x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v36_0) S512x1.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v36_1) S512x1.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S1119744x128 : Shape := ⟨2, ![1119744, 128]⟩
abbrev S995328 : Shape := ⟨1, ![995328]⟩
abbrev S110592 : Shape := ⟨1, ![110592]⟩
abbrev S12288 : Shape := ⟨1, ![12288]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S995328x1 : Shape := ⟨2, ![995328, 1]⟩
abbrev S995328x128 : Shape := ⟨2, ![995328, 128]⟩
abbrev S124416x8x128 : Shape := ⟨3, ![124416, 8, 128]⟩
abbrev S124416x128 : Shape := ⟨2, ![124416, 128]⟩
abbrev S1x128 : Shape := ⟨2, ![1, 128]⟩
abbrev S110592x1 : Shape := ⟨2, ![110592, 1]⟩
abbrev S110592x128 : Shape := ⟨2, ![110592, 128]⟩
abbrev S13824x8x128 : Shape := ⟨3, ![13824, 8, 128]⟩
abbrev S13824x128 : Shape := ⟨2, ![13824, 128]⟩
abbrev S12288x1 : Shape := ⟨2, ![12288, 1]⟩
abbrev S12288x128 : Shape := ⟨2, ![12288, 128]⟩
abbrev S1536x8x128 : Shape := ⟨3, ![1536, 8, 128]⟩
abbrev S1536x128 : Shape := ⟨2, ![1536, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S1119744x128, .f32⟩
  | 1 => ⟨S995328, .i32⟩
  | 2 => ⟨S110592, .i32⟩
  | 3 => ⟨S12288, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S_, .i32⟩
  | 20 => ⟨S995328, .i32⟩
  | 21 => ⟨S995328, .i1⟩
  | 22 => ⟨S_, .i32⟩
  | 23 => ⟨S995328, .i32⟩
  | 24 => ⟨S995328, .i32⟩
  | 25 => ⟨S995328, .i32⟩
  | 26 => ⟨S995328x1, .i32⟩
  | 27 => ⟨S995328x128, .f32⟩
  | 28 => ⟨S124416x8x128, .f32⟩
  | 29 => ⟨S_, .f32⟩
  | 30 => ⟨S124416x128, .f32⟩
  | 31 => ⟨S_, .f32⟩
  | 32 => ⟨S124416x128, .f32⟩
  | 33 => ⟨S124416x128, .f32⟩
  | 34 => ⟨S124416x128, .f32⟩
  | 35 => ⟨S124416x128, .f32⟩
  | 36 => ⟨S124416x128, .f32⟩
  | 37 => ⟨S124416x128, .f32⟩
  | 38 => ⟨S1x128, .f32⟩
  | 39 => ⟨S124416x128, .f32⟩
  | 40 => ⟨S124416x128, .f32⟩
  | 41 => ⟨S_, .f32⟩
  | 42 => ⟨S124416x128, .f32⟩
  | 43 => ⟨S124416x128, .f32⟩
  | 44 => ⟨S_, .i32⟩
  | 45 => ⟨S110592, .i32⟩
  | 46 => ⟨S110592, .i1⟩
  | 47 => ⟨S_, .i32⟩
  | 48 => ⟨S110592, .i32⟩
  | 49 => ⟨S110592, .i32⟩
  | 50 => ⟨S110592, .i32⟩
  | 51 => ⟨S110592x1, .i32⟩
  | 52 => ⟨S110592x128, .f32⟩
  | 53 => ⟨S13824x8x128, .f32⟩
  | 54 => ⟨S_, .f32⟩
  | 55 => ⟨S13824x128, .f32⟩
  | 56 => ⟨S_, .f32⟩
  | 57 => ⟨S13824x128, .f32⟩
  | 58 => ⟨S13824x128, .f32⟩
  | 59 => ⟨S13824x128, .f32⟩
  | 60 => ⟨S13824x128, .f32⟩
  | 61 => ⟨S13824x128, .f32⟩
  | 62 => ⟨S13824x128, .f32⟩
  | 63 => ⟨S1x128, .f32⟩
  | 64 => ⟨S13824x128, .f32⟩
  | 65 => ⟨S13824x128, .f32⟩
  | 66 => ⟨S_, .f32⟩
  | 67 => ⟨S13824x128, .f32⟩
  | 68 => ⟨S13824x128, .f32⟩
  | 69 => ⟨S_, .i32⟩
  | 70 => ⟨S12288, .i32⟩
  | 71 => ⟨S12288, .i1⟩
  | 72 => ⟨S_, .i32⟩
  | 73 => ⟨S12288, .i32⟩
  | 74 => ⟨S12288, .i32⟩
  | 75 => ⟨S12288, .i32⟩
  | 76 => ⟨S12288x1, .i32⟩
  | 77 => ⟨S12288x128, .f32⟩
  | 78 => ⟨S1536x8x128, .f32⟩
  | 79 => ⟨S_, .f32⟩
  | 80 => ⟨S1536x128, .f32⟩
  | 81 => ⟨S_, .f32⟩
  | 82 => ⟨S1536x128, .f32⟩
  | 83 => ⟨S1536x128, .f32⟩
  | 84 => ⟨S1536x128, .f32⟩
  | 85 => ⟨S1536x128, .f32⟩
  | 86 => ⟨S1536x128, .f32⟩
  | 87 => ⟨S1536x128, .f32⟩
  | 88 => ⟨S1x128, .f32⟩
  | 89 => ⟨S1536x128, .f32⟩
  | 90 => ⟨S1536x128, .f32⟩
  | 91 => ⟨S512x128, .f32⟩
  | 92 => ⟨S512x128, .f32⟩
  | 93 => ⟨S512x128, .f32⟩
  | 94 => ⟨S512x128, .f32⟩
  | 95 => ⟨S512x128, .f32⟩
  | 96 => ⟨S1x128, .f32⟩
  | 97 => ⟨S512x128, .f32⟩
  | 98 => ⟨S512x128, .f32⟩
  | 99 => ⟨S_, .f32⟩
  | 100 => ⟨S512x128, .f32⟩
  | 101 => ⟨S512x128, .f32⟩
  | 102 => ⟨S512x128, .f32⟩
  | 103 => ⟨S1x128, .f32⟩
  | 104 => ⟨S512x128, .f32⟩
  | 105 => ⟨S512x128, .f32⟩
  | 106 => ⟨S_, .f32⟩
  | 107 => ⟨S512x128, .f32⟩
  | 108 => ⟨S512x128, .f32⟩
  | 109 => ⟨S512x1, .f32⟩
  | 110 => ⟨S1x1, .f32⟩
  | 111 => ⟨S512x1, .f32⟩
  | 112 => ⟨S512x1, .f32⟩
  | 113 => ⟨S512x128, .f32⟩
  | 114 => ⟨S512x128, .f32⟩
  | 115 => ⟨S1x128, .f32⟩
  | 116 => ⟨S512x128, .f32⟩
  | 117 => ⟨S512x128, .f32⟩
  | 118 => ⟨S_, .f32⟩
  | 119 => ⟨S512x128, .f32⟩
  | 120 => ⟨S512x128, .f32⟩
  | 121 => ⟨S512x128, .f32⟩
  | 122 => ⟨S1x128, .f32⟩
  | 123 => ⟨S512x128, .f32⟩
  | 124 => ⟨S512x128, .f32⟩
  | 125 => ⟨S_, .f32⟩
  | 126 => ⟨S512x128, .f32⟩
  | 127 => ⟨S512x128, .f32⟩
  | _ => ⟨S1119744x128, .f32⟩

abbrev hbmTy0_1 (i : Nat) : BufTy := match i % 128 with
  | 0 => ⟨S512x1, .f32⟩
  | 1 => ⟨S1x1, .f32⟩
  | 2 => ⟨S512x1, .f32⟩
  | 3 => ⟨S512x1, .f32⟩
  | _ => ⟨S1119744x128, .f32⟩

abbrev hbmTy (i : Nat) : BufTy := match i / 128 with
  | 0 => hbmTy0_0 i
  | 1 => hbmTy0_1 i
  | _ => ⟨S1119744x128, .f32⟩

abbrev bufTy : (tb : Table) → Fin (tcTables nBuf tb) → BufTy
  | .hbm, ⟨i, _⟩ => hbmTy i
  | _, _ => ⟨S1119744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call0_cst : Ref sig .tc := ⟨.hbm, 41, rfl⟩
abbrev main_call0_v0 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_cst_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_c_6 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call2_cst : Ref sig .tc := ⟨.hbm, 99, rfl⟩
abbrev main_call2_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call3_cst : Ref sig .tc := ⟨.hbm, 106, rfl⟩
abbrev main_call3_v0 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call4_cst : Ref sig .tc := ⟨.hbm, 118, rfl⟩
abbrev main_call4_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_call5_cst : Ref sig .tc := ⟨.hbm, 125, rfl⟩
abbrev main_call5_v0 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]

class Facts₀ : Prop where
  bcast_S_S995328 : S_.BroadcastsInDim S995328 (![] : Fin 0 → Fin S995328.rank)
  bcast_S995328_S995328x1_0 : S995328.BroadcastsInDim S995328x1 (![0] : Fin 1 → Fin S995328x1.rank)
  shapeCasts_S995328x128_S124416x8x128 : S995328x128.ShapeCasts S124416x8x128
  reducesTo_S124416x8x128_S124416x128_d1 : S124416x8x128.ReducesTo [1] S124416x128
  h_S_ : 0 < S_.numel
  bcast_S_S124416x128 : S_.BroadcastsInDim S124416x128 (![] : Fin 0 → Fin S124416x128.rank)
  slices_S1119744x128_S124416x128_0_0 : S1119744x128.Slices ![0, 0] S124416x128
  bcast_S128_S1x128_1 : S128.BroadcastsInDim S1x128 (![1] : Fin 1 → Fin S1x128.rank)
  bcast_S1x128_S124416x128_0_1 : S1x128.BroadcastsInDim S124416x128 (![0, 1] : Fin 2 → Fin S124416x128.rank)
  bcast_S_S110592 : S_.BroadcastsInDim S110592 (![] : Fin 0 → Fin S110592.rank)
  bcast_S110592_S110592x1_0 : S110592.BroadcastsInDim S110592x1 (![0] : Fin 1 → Fin S110592x1.rank)
  shapeCasts_S110592x128_S13824x8x128 : S110592x128.ShapeCasts S13824x8x128
  reducesTo_S13824x8x128_S13824x128_d1 : S13824x8x128.ReducesTo [1] S13824x128
  bcast_S_S13824x128 : S_.BroadcastsInDim S13824x128 (![] : Fin 0 → Fin S13824x128.rank)
  slices_S124416x128_S13824x128_0_0 : S124416x128.Slices ![0, 0] S13824x128
  bcast_S1x128_S13824x128_0_1 : S1x128.BroadcastsInDim S13824x128 (![0, 1] : Fin 2 → Fin S13824x128.rank)
  bcast_S_S12288 : S_.BroadcastsInDim S12288 (![] : Fin 0 → Fin S12288.rank)
  bcast_S12288_S12288x1_0 : S12288.BroadcastsInDim S12288x1 (![0] : Fin 1 → Fin S12288x1.rank)
  shapeCasts_S12288x128_S1536x8x128 : S12288x128.ShapeCasts S1536x8x128
  reducesTo_S1536x8x128_S1536x128_d1 : S1536x8x128.ReducesTo [1] S1536x128
  bcast_S_S1536x128 : S_.BroadcastsInDim S1536x128 (![] : Fin 0 → Fin S1536x128.rank)
  slices_S13824x128_S1536x128_0_0 : S13824x128.Slices ![0, 0] S1536x128
  bcast_S1x128_S1536x128_0_1 : S1x128.BroadcastsInDim S1536x128 (![0, 1] : Fin 2 → Fin S1536x128.rank)
  slices_S1536x128_S512x128_0_0 : S1536x128.Slices ![0, 0] S512x128
  slices_S1536x128_S512x128_512_0 : S1536x128.Slices ![512, 0] S512x128
  slices_S1536x128_S512x128_1024_0 : S1536x128.Slices ![1024, 0] S512x128
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S1119744x128_S995328x1_S995328x128_1_0_n_n_0_1_1128_wf : GatherDims.WF S1119744x128 S995328x1 S995328x128 [1] [0] [] [0] [] 1 ![1, 128]
  dot_S124416x128_S128x128_S124416x128_1_0_0_1_n_n_wf : DotDims.WF S124416x128 S128x128 S124416x128 [1] [0] [0] [1] [] []
  gather_S124416x128_S110592x1_S110592x128_1_0_n_n_0_1_1128_wf : GatherDims.WF S124416x128 S110592x1 S110592x128 [1] [0] [] [0] [] 1 ![1, 128]
  dot_S13824x128_S128x128_S13824x128_1_0_0_1_n_n_wf : DotDims.WF S13824x128 S128x128 S13824x128 [1] [0] [0] [1] [] []
  gather_S13824x128_S12288x1_S12288x128_1_0_n_n_0_1_1128_wf : GatherDims.WF S13824x128 S12288x1 S12288x128 [1] [0] [] [0] [] 1 ![1, 128]
  dot_S1536x128_S128x128_S1536x128_1_0_0_1_n_n_wf : DotDims.WF S1536x128 S128x128 S1536x128 [1] [0] [0] [1] [] []
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S1119744x128_S995328x1_S995328x128_1_0_n_n_0_1_1128 : GatherDims S1119744x128 S995328x1 S995328x128 where
  offsetDims := [1]
  collapsedSliceDims := [0]
  operandBatchingDims := []
  startIndicesBatchingDims := []
  startIndexMap := [0]
  indexVectorDim := 1
  sliceSizes := ![1, 128]
  wf := gather_S1119744x128_S995328x1_S995328x128_1_0_n_n_0_1_1128_wf
def dot_S124416x128_S128x128_S124416x128_1_0_0_1_n_n : DotDims S124416x128 S128x128 S124416x128 where
  lhsContracting := [1]
  rhsContracting := [0]
  lhsNonContracting := [0]
  rhsNonContracting := [1]
  lhsBatch := []
  rhsBatch := []
  wf := dot_S124416x128_S128x128_S124416x128_1_0_0_1_n_n_wf
def gather_S124416x128_S110592x1_S110592x128_1_0_n_n_0_1_1128 : GatherDims S124416x128 S110592x1 S110592x128 where
  offsetDims := [1]
  collapsedSliceDims := [0]
  operandBatchingDims := []
  startIndicesBatchingDims := []
  startIndexMap := [0]
  indexVectorDim := 1
  sliceSizes := ![1, 128]
  wf := gather_S124416x128_S110592x1_S110592x128_1_0_n_n_0_1_1128_wf
def dot_S13824x128_S128x128_S13824x128_1_0_0_1_n_n : DotDims S13824x128 S128x128 S13824x128 where
  lhsContracting := [1]
  rhsContracting := [0]
  lhsNonContracting := [0]
  rhsNonContracting := [1]
  lhsBatch := []
  rhsBatch := []
  wf := dot_S13824x128_S128x128_S13824x128_1_0_0_1_n_n_wf
def gather_S13824x128_S12288x1_S12288x128_1_0_n_n_0_1_1128 : GatherDims S13824x128 S12288x1 S12288x128 where
  offsetDims := [1]
  collapsedSliceDims := [0]
  operandBatchingDims := []
  startIndicesBatchingDims := []
  startIndexMap := [0]
  indexVectorDim := 1
  sliceSizes := ![1, 128]
  wf := gather_S13824x128_S12288x1_S12288x128_1_0_n_n_0_1_1128_wf
def dot_S1536x128_S128x128_S1536x128_1_0_0_1_n_n : DotDims S1536x128 S128x128 S1536x128 where
  lhsContracting := [1]
  rhsContracting := [0]
  lhsNonContracting := [0]
  rhsNonContracting := [1]
  lhsBatch := []
  rhsBatch := []
  wf := dot_S1536x128_S128x128_S1536x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.ValueRun.lean ====
/-
  The kernel program's run with its two result arrays named.

  The program is four kernel regions among stretches of host operations.  Its buffer contents at each
  boundary are a fold from the launch memory: a stretch of host operations applies them in order, a region
  replaces each of its windows' arrays by what its write-backs leave and keeps every other buffer.  After
  the last region every buffer that is not scoped holds the last fold's value, so the two results hold that
  fold read at their buffers and the nineteen arguments hold their launch contents.  The later modules
  read that fold back, region by region, as the reference's stage functions of the arguments.
-/
import proofs.«138030_j60799557042640_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates without a fault; at the end
    each result array holds the last boundary's contents at its buffer, and every argument array holds
    what it was launched with.  The launch over the eight segments leaves every unscoped buffer at the
    last fold; the two results and the nineteen arguments are read off that. -/
theorem run : θ_run defs (onTc (τ := τ) (main (F := F))) ⟨m, fun _ => 0, ρ⟩ (fun r => ∀ c : Dev nD,
      r.2.mem ((c.tc : Thread nD τ).loc main_v36_0) = W8 m ρ c (Proc.devRef .tc main_v36_0)
      ∧ r.2.mem ((c.tc : Thread nD τ).loc main_v36_1) = W8 m ρ c (Proc.devRef .tc main_v36_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36_0 (by decide)), h c _ (mem_uc main_v36_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c)⟩)

end Cert.KernelIdeal.ValueRun

end
-- ==== Proof.L0Pay.lean ====
import proofs.«138030_j60799557042640_2_alg».proof.Proof.Gen.KernelIdeal.Skeleton
import Idealize.ShloMosaic.Lib.ValueIdx
import Idealize.ShloMosaic.Lib.Pipeline.Value
import Idealize.ShloMosaic.PureOps.Ideal.Laws

/-! The first layer's block function read at one entry.

For a block of 1536 rows, entry (p, q) of what the body stores is
  max (∑ k, self p k · Wself k q + ∑ k, ((∑ e, nbr p e k) / 8) · Wnbr k q + bias 0 q) 0 :
the mean of the 8 neighbour rows, two 128-term contractions, the bias row, the clamp at zero. -/

noncomputable section

namespace Cert.KernelIdeal.RegionValue.L0

open Cert.KernelIdeal Cert.KernelIdeal.Gen Idealize.ShloMosaic Idealize.ShloMosaic.ValueIdx

/-- The sum over the neighbour axis (axis 1 of a [1536, 8, 128] block) at entry (p, q): the 8 entries (p, e, q). -/
theorem neighbourSum (src : FVec Ideal S1536x8x128 .f32) (hφ : FKind.Formats .f32)
    (hacc : (0x00000000#32 : BitVec 32) = FKind.add.neutral .f32 hφ) (p : Fin 1536) (q : Fin 128) :
    multiReduction .add [1] S1536x128 src 0x00000000#32 reduces_S1536x8x128_S1536x128 hφ hacc (ix2 p q)
      = ∑ e : Fin 8, src (ix3 p e q) := by
  refine (Ideal.multiReduction_add_single src 0x00000000#32 reduces_S1536x8x128_S1536x128 hφ hacc (ix2 p q)).trans ?_
  refine Finset.sum_congr rfl fun e _ => congrArg src ?_
  funext a
  match a with
  | ⟨0, _⟩ => rfl
  | ⟨1, _⟩ => rfl
  | ⟨2, _⟩ => rfl

/-- The contraction's operand indices at an output index i and a contraction index r: the left operand is read at
    (i 0, r), the right one at (r, i 1). -/
theorem lhs_row (i : S1536x128.Idx) (r : dot_S1536x128_S128x128_S1536x128_1_0_0_1_n_n.contr.Idx) :
    (dot_S1536x128_S128x128_S1536x128_1_0_0_1_n_n.lhsIdx i r 0).val = (i 0).val := by
  unfold DotDims.lhsIdx
  rw [dif_neg (show ¬(0 : Fin S1536x128.rank) ∈ dot_S1536x128_S128x128_S1536x128_1_0_0_1_n_n.lhsBatch by decide), dif_pos (show (0 : Fin S1536x128.rank) ∈ dot_S1536x128_S128x128_S1536x128_1_0_0_1_n_n.lhsNonContracting by decide)]
  rfl
theorem lhs_col (i : S1536x128.Idx) (r : dot_S1536x128_S128x128_S1536x128_1_0_0_1_n_n.contr.Idx) :
    (dot_S1536x128_S128x128_S1536x128_1_0_0_1_n_n.lhsIdx i r 1).val = (r ⟨0, by decide⟩).val :=
  dot_S1536x128_S128x128_S1536x128_1_0_0_1_n_n.lhsIdx_val_of_single rfl i r
theorem rhs_row (i : S1536x128.Idx) (r : dot_S1536x128_S128x128_S1536x128_1_0_0_1_n_n.contr.Idx) :
    (dot_S1536x128_S128x128_S1536x128_1_0_0_1_n_n.rhsIdx i r 0).val = (r ⟨0, by decide⟩).val :=
  dot_S1536x128_S128x128_S1536x128_1_0_0_1_n_n.rhsIdx_val_of_single rfl i r
theorem rhs_col (i : S1536x128.Idx) (r : dot_S1536x128_S128x128_S1536x128_1_0_0_1_n_n.contr.Idx) :
    (dot_S1536x128_S128x128_S1536x128_1_0_0_1_n_n.rhsIdx i r 1).val = (i 1).val := by
  unfold DotDims.rhsIdx
  rw [dif_neg (show ¬(1 : Fin S128x128.rank) ∈ dot_S1536x128_S128x128_S1536x128_1_0_0_1_n_n.rhsBatch by decide), dif_pos (show (1 : Fin S128x128.rank) ∈ dot_S1536x128_S128x128_S1536x128_1_0_0_1_n_n.rhsNonContracting by decide)]
  rfl

/-- A [1536, 128] × [128, 128] contraction into the zero block at entry (p, q): the 128 products along row p and column q. -/
theorem blockMatmul (lhs : FVec Ideal S1536x128 .bf16) (rhs : FVec Ideal S128x128 .bf16) (p : Fin 1536) (q : Fin 128) :
    matmul dot_S1536x128_S128x128_S1536x128_1_0_0_1_n_n none lhs rhs (constant S1536x128 .f32 0x00000000#32) (ix2 p q)
      = ∑ k : Fin 128, lhs (ix2 p k) * rhs (ix2 k q) := by
  refine (Ideal.matmul_constant_zero_apply dot_S1536x128_S128x128_S1536x128_1_0_0_1_n_n none lhs rhs (ix2 p q)).trans ?_
  rw [← Equiv.sum_comp (contrEquiv1 dot_S1536x128_S128x128_S1536x128_1_0_0_1_n_n 128 rfl rfl).symm]
  refine Finset.sum_congr rfl fun k _ => ?_
  have hk := contrEquiv1_symm_val dot_S1536x128_S128x128_S1536x128_1_0_0_1_n_n 128 rfl rfl k
  have el : dot_S1536x128_S128x128_S1536x128_1_0_0_1_n_n.lhsIdx (ix2 p q) ((contrEquiv1 dot_S1536x128_S128x128_S1536x128_1_0_0_1_n_n 128 rfl rfl).symm k) = ix2 p k := funext fun a => Fin.ext (by
    match a with
    | ⟨0, _⟩ => exact lhs_row _ _
    | ⟨1, _⟩ => exact (lhs_col _ _).trans hk)
  have er : dot_S1536x128_S128x128_S1536x128_1_0_0_1_n_n.rhsIdx (ix2 p q) ((contrEquiv1 dot_S1536x128_S128x128_S1536x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row [1, 128] repeated down 1536 rows, at entry (p, q): the row's entry q. -/
theorem biasRow (b : FVec Ideal S1x128 .f32) (p : Fin 1536) (q : Fin 128) :
    broadcastTo S1536x128 b broadcasts_S1x128_S1536x128 (ix2 p q) = b (ix2 (0 : Fin 1) q) :=
  broadcastTo_apply b broadcasts_S1x128_S1536x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The body's stored block at entry (p, q). A change of float format is the identity on extended reals. -/
theorem layerBlock_apply (nb : Vec Ideal S1536x8x128 .f32) (sf : Vec Ideal S1536x128 .f32) (ws wn : Vec Ideal S128x128 .f32)
    (b : Vec Ideal S1x128 .f32) (p : Fin 1536) (q : Fin 128) :
    k0_pay1 (F := Ideal) nb sf ws wn b (ix2 p q)
      = max (((∑ k : Fin 128, sf (ix2 p k) * ws (ix2 k q))
              + ∑ k : Fin 128, Ideal.div (∑ e : Fin 8, nb (ix3 p e k)) (Ideal.ofBits .f32 0x41000000#32) * wn (ix2 k q))
             + b (ix2 (0 : Fin 1) q)) (Ideal.ofBits .f32 0x00000000#32) := by
  unfold k0_pay1
  simp only [shapeCast_self]
  refine congrArg₂ max (congrArg₂ (· + ·) (congrArg₂ (· + ·) ?_ ?_) ?_) rfl
  · exact blockMatmul _ _ p q
  · refine (blockMatmul _ _ p q).trans (Finset.sum_congr rfl fun k _ => congrArg (· * wn (ix2 k q)) ?_)
    exact congrArg (Ideal.div · (Ideal.ofBits .f32 0x41000000#32)) (neighbourSum nb _ _ p k)
  · exact biasRow b p q

end Cert.KernelIdeal.RegionValue.L0
end
-- ==== Proof.L0Spec.lean ====
import Idealize.ShloMosaic.Lib.ValueIdx
import Idealize.ShloMosaic.PureOps.Ideal.Laws

/-! The first layer as one function of its five arrays, entry by entry.

Entry (r, q) of the [124416, 128] result is
  max (∑ k, self r k · Wself k q + ∑ k, ((∑ e, nbr r e k) / 8) · Wnbr k q + bias 0 q) 0 ,
with self the [124416, 128] feature rows, nbr the [124416, 8, 128] gathered neighbour rows, Wself and Wnbr the two
[128, 128] weight matrices and bias the [1, 128] bias row. The literals 8 and 0 stay as their float words. -/

noncomputable section

namespace Cert.KernelIdeal.RegionValue.L0

open Idealize.ShloMosaic Idealize.ShloMosaic.ValueIdx

/-- Entry (r, q) of the layer. -/
def layerAt (self : (⟨2, ![124416, 128]⟩ : Shape).Idx → EReal) (nbr : (⟨3, ![124416, 8, 128]⟩ : Shape).Idx → EReal)
    (ws wn : (⟨2, ![128, 128]⟩ : Shape).Idx → EReal) (b : (⟨2, ![1, 128]⟩ : Shape).Idx → EReal)
    (r : Fin 124416) (q : Fin 128) : EReal :=
  max (((∑ k : Fin 128, self (ix2 r k) * ws (ix2 k q))
        + ∑ k : Fin 128, Ideal.div (∑ e : Fin 8, nbr (ix3 r e k)) (Ideal.ofBits .f32 0x41000000#32) * wn (ix2 k q))
       + b (ix2 (0 : Fin 1) q)) (Ideal.ofBits .f32 0x00000000#32)

/-- The layer's result array. -/
def layer (self : (⟨2, ![124416, 128]⟩ : Shape).Idx → EReal) (nbr : (⟨3, ![124416, 8, 128]⟩ : Shape).Idx → EReal)
    (ws wn : (⟨2, ![128, 128]⟩ : Shape).Idx → EReal) (b : (⟨2, ![1, 128]⟩ : Shape).Idx → EReal) :
    (⟨2, ![124416, 128]⟩ : Shape).Idx → EReal :=
  fun i => layerAt self nbr ws wn b (i 0) (i 1)

theorem layer_ix2 (self : (⟨2, ![124416, 128]⟩ : Shape).Idx → EReal) (nbr : (⟨3, ![124416, 8, 128]⟩ : Shape).Idx → EReal)
    (ws wn : (⟨2, ![128, 128]⟩ : Shape).Idx → EReal) (b : (⟨2, ![1, 128]⟩ : Shape).Idx → EReal) (r : Fin 124416) (q : Fin 128) :
    layer self nbr ws wn b (ix2 r q) = layerAt self nbr ws wn b r q := rfl

end Cert.KernelIdeal.RegionValue.L0
end
-- ==== Proof.L0Blk.lean ====
import proofs.«138030_j60799557042640_2_alg».proof.Proof.Gen.KernelIdeal.Frame
import proofs.«138030_j60799557042640_2_alg».proof.Proof.L0Pay
import proofs.«138030_j60799557042640_2_alg».proof.Proof.L0Spec
import Idealize.ShloMosaic.Lib.Pipeline.Value

/-! From the 81 row blocks to the whole array.

Grid point t handles rows [1536·t, 1536·(t+1)): it reads that row block of the features and of the neighbour
rows, the whole weight matrices and the bias row, and writes back the layer's entries of that row block. The 81
blocks cover the 124416 rows, so the result array ends holding the layer function of the five arrays. -/

noncomputable section

namespace Cert.KernelIdeal.RegionValue.L0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the grid: the two row-blocked inputs and the output are at block (t, 0) (the neighbour
    rows at (t, 0, 0)); the weights and the bias are at block (0, 0) at every point. -/
theorem index_maps : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block at point t is rows 1536·t … of the feature array. -/
theorem selfBlock (c : Dev nD) (t : Fin cfg0.N) (p : Fin 1536) (k : Fin 128) (r : Fin 124416)
    (hr : r.val = t.val * 1536 + p.val) :
    (iblk0 V c 0 t : Vec Ideal S1536x128 .f32) (ix2 p k) = (V c main_v8 : S124416x128.Idx → EReal) (ix2 r k) := by
  obtain ⟨e0, e1, -⟩ := index_maps t
  unfold iblk0
  rw [View.read_apply]
  show V c main_v8 _ = V c main_v8 _
  have he : ((cfg0.win 0).blk t).view.emb (ix2 p k) = (ix2 r k : S124416x128.Idx) := by
    funext a; apply Fin.ext
    match a with
    | ⟨0, _⟩ => show win0_0.index t (0 : Fin 2) * 1536 + 1 * p.val = r.val; rw [e0, hr]; omega
    | ⟨1, _⟩ => show win0_0.index t (1 : Fin 2) * 128 + 1 * k.val = k.val; rw [e1]; omega
  rw [he]

/-- The neighbour block at point t is rows 1536·t … of the neighbour array, all 8 neighbours, all 128 lanes. -/
theorem nbrBlock (c : Dev nD) (t : Fin cfg0.N) (p : Fin 1536) (e : Fin 8) (k : Fin 128) (r : Fin 124416)
    (hr : r.val = t.val * 1536 + p.val) :
    (iblk0 V c 1 t : Vec Ideal S1536x8x128 .f32) (ix3 p e k) = (V c main_v7 : S124416x8x128.Idx → EReal) (ix3 r e k) := by
  obtain ⟨-, -, e0, e1, e2, -⟩ := index_maps t
  unfold iblk0
  rw [View.read_apply]
  show V c main_v7 _ = V c main_v7 _
  have he : ((cfg0.win 1).blk t).view.emb (ix3 p e k) = (ix3 r e k : S124416x8x128.Idx) := by
    funext a; apply Fin.ext
    match a with
    | ⟨0, _⟩ => show win0_1.index t (0 : Fin 3) * 1536 + 1 * p.val = r.val; rw [e0, hr]; omega
    | ⟨1, _⟩ => show win0_1.index t (1 : Fin 3) * 8 + 1 * e.val = e.val; rw [e1]; omega
    | ⟨2, _⟩ => show win0_1.index t (2 : Fin 3) * 128 + 1 * k.val = k.val; rw [e2]; omega
  rw [he]

/-- The two weight windows hold their whole matrices at every point. -/
theorem wsBlock (c : Dev nD) (t : Fin cfg0.N) (k q : Fin 128) :
    (iblk0 V c 2 t : Vec Ideal S128x128 .f32) (ix2 k q) = (V c main_arg4 : S128x128.Idx → EReal) (ix2 k q) := by
  obtain ⟨-, -, -, -, -, e0, e1, -⟩ := index_maps t
  unfold iblk0
  rw [View.read_apply]
  show V c main_arg4 _ = V c main_arg4 _
  have he : ((cfg0.win 2).blk t).view.emb (ix2 k q) = (ix2 k q : S128x128.Idx) := by
    funext a; apply Fin.ext
    match a with
    | ⟨0, _⟩ => show win0_2.index t (0 : Fin 2) * 128 + 1 * k.val = k.val; rw [e0]; omega
    | ⟨1, _⟩ => show win0_2.index t (1 : Fin 2) * 128 + 1 * q.val = q.val; rw [e1]; omega
  rw [he]

theorem wnBlock (c : Dev nD) (t : Fin cfg0.N) (k q : Fin 128) :
    (iblk0 V c 3 t : Vec Ideal S128x128 .f32) (ix2 k q) = (V c main_arg5 : S128x128.Idx → EReal) (ix2 k q) := by
  obtain ⟨-, -, -, -, -, -, -, e0, e1, -⟩ := index_maps t
  unfold iblk0
  rw [View.read_apply]
  show V c main_arg5 _ = V c main_arg5 _
  have he : ((cfg0.win 3).blk t).view.emb (ix2 k q) = (ix2 k q : S128x128.Idx) := by
    funext a; apply Fin.ext
    match a with
    | ⟨0, _⟩ => show win0_3.index t (0 : Fin 2) * 128 + 1 * k.val = k.val; rw [e0]; omega
    | ⟨1, _⟩ => show win0_3.index t (1 : Fin 2) * 128 + 1 * q.val = q.val; rw [e1]; omega
  rw [he]

/-- The bias window holds the whole bias row at every point. -/
theorem biasBlock (c : Dev nD) (t : Fin cfg0.N) (z : Fin 1) (q : Fin 128) :
    (iblk0 V c 4 t : Vec Ideal S1x128 .f32) (ix2 z q) = (V c main_v9 : S1x128.Idx → EReal) (ix2 z q) := by
  obtain ⟨-, -, -, -, -, -, -, -, -, e0, e1, -⟩ := index_maps t
  unfold iblk0
  rw [View.read_apply]
  show V c main_v9 _ = V c main_v9 _
  have he : ((cfg0.win 4).blk t).view.emb (ix2 z q) = (ix2 z q : S1x128.Idx) := by
    funext a; apply Fin.ext
    match a with
    | ⟨0, _⟩ => show win0_4.index t (0 : Fin 2) * 1 + 1 * z.val = z.val; rw [e0]; omega
    | ⟨1, _⟩ => show win0_4.index t (1 : Fin 2) * 128 + 1 * q.val = q.val; rw [e1]; omega
  rw [he]

/-- What point t writes back is row block t of the layer function of the arrays as the region finds them. -/
theorem flushed_eq (c : Dev nD) (t : Fin cfg0.N) :
    (dat0 (F := Ideal) V c).flushed 5 t
      = ((cfg0.win 5).blk t).view.read (Elt Ideal)
          (layer (V c main_v8) (V c main_v7) (V c main_arg4) (V c main_arg5) (V c main_v9)) := by
  show (cfg0.win 5).cut (grid0.coords t) ((dat0 V c).after 5 t) = _
  rw [after0_5]
  unfold out0_5
  rw [View.canon_unit_zero zeros2]
  simp only [View.ld_unit_zero (S := S1536x128) zeros2, View.ld_unit_zero (S := S1536x8x128) zeros3,
    View.ld_unit_zero (S := S128x128) zeros2, View.ld_unit_zero (S := S1x128) zeros2]
  funext j
  have hN : cfg0.N = 81 := N_0
  have ht : t.val < 81 := by have := t.isLt; omega
  obtain ⟨-, -, -, -, -, -, -, -, -, -, -, e0, e1⟩ := index_maps t
  obtain ⟨p, q, hp, hq⟩ : ∃ (p : Fin 1536) (q : Fin 128), p.val = (j 0).val ∧ q.val = (j 1).val :=
    ⟨⟨(j 0).val, (j 0).isLt⟩, ⟨(j 1).val, (j 1).isLt⟩, rfl, rfl⟩
  obtain ⟨r, hr⟩ : ∃ r : Fin 124416, r.val = t.val * 1536 + p.val :=
    ⟨⟨t.val * 1536 + p.val, by have := p.isLt; omega⟩, rfl⟩
  have hx : (cfg0.win 5).xinj (grid0.coords t) j = (ix2 p q : S1536x128.Idx) :=
    funext fun a => Fin.ext (by match a with | ⟨0, _⟩ => exact hp.symm | ⟨1, _⟩ => exact hq.symm)
  have he : ((cfg0.win 5).blk t).view.emb j = (ix2 r q : S124416x128.Idx) := by
    funext a; apply Fin.ext
    match a with
    | ⟨0, _⟩ => show win0_5.index t (0 : Fin 2) * 1536 + 1 * (j 0).val = r.val; rw [e0, hr, hp]; omega
    | ⟨1, _⟩ => show win0_5.index t (1 : Fin 2) * 128 + 1 * (j 1).val = q.val; rw [e1, hq]; omega
  show k0_pay1 (F := Ideal) (iblk0 V c 1 t) (iblk0 V c 0 t) (iblk0 V c 2 t) (iblk0 V c 3 t) (iblk0 V c 4 t)
        ((cfg0.win 5).xinj (grid0.coords t) j)
      = layer (V c main_v8) (V c main_v7) (V c main_arg4) (V c main_arg5) (V c main_v9) (((cfg0.win 5).blk t).view.emb j)
  rw [hx, he, layer_ix2]
  refine (layerBlock_apply (iblk0 V c 1 t) (iblk0 V c 0 t) (iblk0 V c 2 t) (iblk0 V c 3 t) (iblk0 V c 4 t) p q).trans ?_
  unfold layerAt
  refine congrArg₂ max (congrArg₂ (· + ·) (congrArg₂ (· + ·) ?_ ?_) ?_) rfl
  · exact Finset.sum_congr rfl fun k _ => congrArg₂ (· * ·) (selfBlock V c t p k r hr) (wsBlock V c t k q)
  · exact Finset.sum_congr rfl fun k _ => congrArg₂ (· * ·)
      (congrArg (Ideal.div · (Ideal.ofBits .f32 0x41000000#32)) (Finset.sum_congr rfl fun e _ => nbrBlock V c t p e k r hr))
      (wnBlock V c t k q)
  · exact biasBlock V c t 0 q

/-- An index of the result array is in point t's block iff each coordinate is in the block's range on its axis. -/
theorem mem_blk (t : Fin cfg0.N) (i : S124416x128.Idx) :
    i ∈ ((cfg0.win 5).blk t).view.set ↔ ∀ a : Fin 2, win0_5.index t a * S1536x128.size a ≤ (i a).val
      ∧ (i a).val < win0_5.index t a * S1536x128.size a + S1536x128.size a := by
  show i ∈ ((View.whole main_v10).slice (win0_5.rect t)).set ↔ _
  rw [View.set_slice_whole, Rect.mem_set_unit]
  exact Iff.rfl

/-- Every index of the result array is in some point's block: row r is in the block of point r / 1536. -/
theorem cover (i : S124416x128.Idx) :
    ∃ t : Fin cfg0.N, (cfg0.win 5).flush t = true ∧ i ∈ ((cfg0.win 5).blk t).view.set := by
  have hN : cfg0.N = 81 := N_0
  have hi0 : (i 0).val < 124416 := (i 0).isLt
  have hi1 : (i 1).val < 128 := (i 1).isLt
  obtain ⟨t, ht⟩ : ∃ t : Fin cfg0.N, t.val = (i 0).val / 1536 := ⟨⟨(i 0).val / 1536, by omega⟩, rfl⟩
  obtain ⟨-, -, -, -, -, -, -, -, -, -, -, e0, e1⟩ := index_maps t
  refine ⟨t, flush0_5 t, ?_⟩
  rw [mem_blk]
  intro a
  match a with
  | ⟨0, _⟩ =>
    show win0_5.index t (0 : Fin 2) * 1536 ≤ (i 0).val ∧ (i 0).val < win0_5.index t (0 : Fin 2) * 1536 + 1536
    rw [e0, ht]; omega
  | ⟨1, _⟩ =>
    show win0_5.index t (1 : Fin 2) * 128 ≤ (i 1).val ∧ (i 1).val < win0_5.index t (1 : Fin 2) * 128 + 128
    rw [e1]; omega

/-- After the region the result array is the layer function of the five arrays as the region finds them. -/
theorem final (c : Dev nD) :
    (dat0 (F := Ideal) V c).arrAt 5 cfg0.N
      = layer (V c main_v8) (V c main_v7) (V c main_arg4) (V c main_arg5) (V c main_v9) :=
  (dat0 (F := Ideal) V c).arrAt_eq_of_cover 5
    (layer (V c main_v8) (V c main_v7) (V c main_arg4) (V c main_arg5) (V c main_v9))
    (fun t _ => flushed_eq V c t) cover

end Cert.KernelIdeal.RegionValue.L0
end
-- ==== Proof.L0Ref.lean ====
import proofs.«138030_j60799557042640_2_alg».proof.Proof.Gen.ReferenceIdeal.Read
import proofs.«138030_j60799557042640_2_alg».proof.Proof.L0Spec
import Idealize.ShloMosaic.Lib.Pipeline.Value

/-! The host program's first layer is the layer function of the sliced features, the reshaped gathered
neighbour rows, the two weight matrices and the bias: stage by stage, its relu of (features · Wself +
(neighbour sum / 8) · Wnbr + bias) read at an index is the layer's entry. -/

noncomputable section

namespace Cert.KernelIdeal.RegionValue.L0

open Idealize.ShloMosaic Idealize.ShloMosaic.ValueIdx Cert.ReferenceIdeal.Read

theorem ref_eq (x0 : (⟨Cert.ReferenceIdeal.S1119744x128, .f32⟩ : BufTy).Contents (Elt Ideal))
    (x1 : (⟨Cert.ReferenceIdeal.S995328, .i32⟩ : BufTy).Contents (Elt Ideal))
    (x4 x5 : (⟨Cert.ReferenceIdeal.S128x128, .f32⟩ : BufTy).Contents (Elt Ideal))
    (x6 : (⟨Cert.ReferenceIdeal.S128, .f32⟩ : BufTy).Contents (Elt Ideal))
    (b : (⟨2, ![1, 128]⟩ : Shape).Idx → EReal) (hb : ∀ q : Fin 128, b (ix2 (0 : Fin 1) q) = x6 (ix1 q)) :
    val_main_v18 (F := Ideal) x0 x1 x4 x5 x6
      = layer (val_main_v11 (F := Ideal) x0) (val_main_v7 (F := Ideal) x0 x1) x4 x5 b := by
  funext i
  obtain ⟨r, q, rfl⟩ : ∃ (r : Fin 124416) (q : Fin 128), i = ix2 r q := ⟨i 0, i 1, eq_ix2 i⟩
  rw [layer_ix2]
  unfold layerAt
  rw [val_main_v18_apply, val_main_v17_apply, val_main_v14_apply, val_main_v12_apply, val_main_v13_apply,
    val_main_v16_apply, val_main_v15_apply, val_main_call0_v0_apply, val_main_call0_cst_apply]
  refine congrArg₂ max (congrArg₂ (· + ·) (congrArg₂ (· + ·) ?_ ?_) ?_) rfl
  · refine Finset.sum_congr rfl fun k _ => ?_
    rw [show lidx_main_v12 (ix2 r q) k = ix2 r k from
          funext fun a => Fin.ext (by match a with | ⟨0, _⟩ => rfl | ⟨1, _⟩ => rfl),
        show ridx_main_v12 (ix2 r q) k = ix2 k q from
          funext fun a => Fin.ext (by match a with | ⟨0, _⟩ => rfl | ⟨1, _⟩ => rfl)]
  · refine Finset.sum_congr rfl fun k _ => ?_
    rw [show lidx_main_v13 (ix2 r q) k = ix2 r k from
          funext fun a => Fin.ext (by match a with | ⟨0, _⟩ => rfl | ⟨1, _⟩ => rfl),
        show ridx_main_v13 (ix2 r q) k = ix2 k q from
          funext fun a => Fin.ext (by match a with | ⟨0, _⟩ => rfl | ⟨1, _⟩ => rfl),
        val_main_v10_apply, val_main_v8_apply, val_main_v9_apply, val_main_cst_1_apply, val_main_cst_apply]
    refine congrArg (· * x5 (ix2 k q)) (congrArg (Ideal.div · (Ideal.ofBits .f32 0x41000000#32)) ?_)
    refine (congrArg (· + _) Ideal.ofBits_zero_f32).trans ((zero_add _).trans (Finset.sum_congr rfl fun e _ => congrArg _ ?_))
    exact funext fun a => Fin.ext (by match a with | ⟨0, _⟩ => rfl | ⟨1, _⟩ => rfl | ⟨2, _⟩ => rfl)
  · rw [hb]
    exact congrArg x6 (funext fun a => Fin.ext (by match a with | ⟨0, _⟩ => rfl))

end Cert.KernelIdeal.RegionValue.L0
end
-- ==== Proof.L0.lean ====
import proofs.«138030_j60799557042640_2_alg».proof.Proof.Gen.KernelIdeal.Frame
import proofs.«138030_j60799557042640_2_alg».proof.Proof.Gen.ReferenceIdeal.Read
import proofs.«138030_j60799557042640_2_alg».proof.Proof.L0Blk
import proofs.«138030_j60799557042640_2_alg».proof.Proof.L0Ref

/-! The first layer's region: with the sliced features, the reshaped gathered neighbour rows, the two weight
matrices and the reshaped bias in its five input arrays, the region's result array is the host program's relu stage.
Both sides are the same layer function of those arrays. -/

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The bias reshaped from [128] to [1, 128], read at (0, q): entry q (the same row-major position). -/
theorem L0.biasReshape (x6 : (⟨S128, .f32⟩ : BufTy).Contents (Elt Ideal)) (q : Fin 128) :
    shapeCast S1x128 x6 shapeCasts_S128_S1x128 (ValueIdx.ix2 (0 : Fin 1) q) = x6 (ValueIdx.ix1 q) :=
  shapeCast_apply x6 shapeCasts_S128_S1x128 (ValueIdx.ix2 (0 : Fin 1) q) (ValueIdx.ix1 q) (by
    rw [Shape.rowMajor_val_one, Shape.rowMajor_val_two]
    show q.val = 0 * 128 + q.val
    omega)

theorem layer0 (c : Dev nD) (x0 : (⟨S1119744x128, .f32⟩ : BufTy).Contents (Elt Ideal)) (x1 : (⟨S995328, .i32⟩ : BufTy).Contents (Elt Ideal))
    (x4 x5 : (⟨S128x128, .f32⟩ : BufTy).Contents (Elt Ideal)) (x6 : (⟨S128, .f32⟩ : BufTy).Contents (Elt Ideal))
    (h0 : V c main_v8 = Cert.ReferenceIdeal.Read.val_main_v11 x0)
    (h1 : V c main_v7 = Cert.ReferenceIdeal.Read.val_main_v7 x0 x1)
    (h2 : V c main_arg4 = x4) (h3 : V c main_arg5 = x5)
    (h4 : V c main_v9 = shapeCast S1x128 x6 shapeCasts_S128_S1x128) :
    (dat0 (F := Ideal) V c).arrAt 5 cfg0.N = Cert.ReferenceIdeal.Read.val_main_v18 x0 x1 x4 x5 x6 := by
  rw [L0.final V c, h0, h1, h2, h3, h4]
  exact (L0.ref_eq x0 x1 x4 x5 x6 (shapeCast S1x128 x6 shapeCasts_S128_S1x128) (fun q => L0.biasReshape x6 q)).symm

end Cert.KernelIdeal.RegionValue
end
-- ==== Proof.L1Pay.lean ====
import proofs.«138030_j60799557042640_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
The second layer's arithmetic on one block of 1536 rows, read entry by entry.

For a row `p` of the block and an output feature `q` the body computes

  max ( ∑ₖ self(p,k) · W₁(k,q) + ∑ₖ (∑ₙ nbr(p,n,k)) / 8 · W₂(k,q) + bias(0,q) , 0 )

where `self` is the block of the rows' own features, `nbr` the block of their eight neighbours' features,
`W₁`, `W₂` the two weight matrices and `bias` the bias row. At the extended reals a change of float format is the
identity, a lane sum from the zero accumulator is the plain sum, and a matrix product into the zero splat is the plain
sum of products over the contracted axis.
-/

noncomputable section

namespace Cert.KernelIdeal.RegionValue.L1

open Cert.KernelIdeal Cert.KernelIdeal.Gen Idealize.ShloMosaic Idealize.ShloMosaic.TcCoe Idealize.SL.Sem
open Idealize.ShloMosaic.ValueIdx

/-- The sum over the eight neighbours (axis 1 of a `[1536, 8, 128]` block) from the zero accumulator, at row `p` and
    feature `k`: the sum over `n` of the block at `(p, n, k)`. -/
theorem nbrSum_apply (src : FVec Ideal S1536x8x128 .f32) (p : Fin 1536) (k : Fin 128) :
    multiReduction .add [1] S1536x128 src 0x00000000#32 reduces_S1536x8x128_S1536x128 (.inl rfl) rfl (ix2 p k)
      = ∑ n : Fin 8, src (ix3 p n k) := by
  refine (Ideal.multiReduction_add_single src 0x00000000#32 reduces_S1536x8x128_S1536x128 (.inl rfl) rfl (ix2 p k)).trans ?_
  refine Finset.sum_congr rfl fun n _ => ?_
  exact congrArg src (funext fun a => Fin.ext (by match a with | ⟨0, _⟩ => rfl | ⟨1, _⟩ => rfl | ⟨2, _⟩ => rfl))

/-- The left operand's row coordinate in the product is the output's row. -/
theorem lhsIdx_row (i : S1536x128.Idx) (c : dot_S1536x128_S128x128_S1536x128_1_0_0_1_n_n.contr.Idx) :
    (dot_S1536x128_S128x128_S1536x128_1_0_0_1_n_n.lhsIdx i c 0).val = (i 0).val := by
  unfold DotDims.lhsIdx
  rw [dif_neg (show ¬(0 : Fin S1536x128.rank) ∈ dot_S1536x128_S128x128_S1536x128_1_0_0_1_n_n.lhsBatch by decide), dif_pos (show (0 : Fin S1536x128.rank) ∈ dot_S1536x128_S128x128_S1536x128_1_0_0_1_n_n.lhsNonContracting by decide)]
  rfl
/-- The left operand's column coordinate is the contracted feature. -/
theorem lhsIdx_contr (i : S1536x128.Idx) (c : dot_S1536x128_S128x128_S1536x128_1_0_0_1_n_n.contr.Idx) :
    (dot_S1536x128_S128x128_S1536x128_1_0_0_1_n_n.lhsIdx i c 1).val = (c ⟨0, by decide⟩).val :=
  dot_S1536x128_S128x128_S1536x128_1_0_0_1_n_n.lhsIdx_val_of_single rfl i c
/-- The right operand's row coordinate is the contracted feature. -/
theorem rhsIdx_contr (i : S1536x128.Idx) (c : dot_S1536x128_S128x128_S1536x128_1_0_0_1_n_n.contr.Idx) :
    (dot_S1536x128_S128x128_S1536x128_1_0_0_1_n_n.rhsIdx i c 0).val = (c ⟨0, by decide⟩).val :=
  dot_S1536x128_S128x128_S1536x128_1_0_0_1_n_n.rhsIdx_val_of_single rfl i c
/-- The right operand's column coordinate is the output's column. -/
theorem rhsIdx_col (i : S1536x128.Idx) (c : dot_S1536x128_S128x128_S1536x128_1_0_0_1_n_n.contr.Idx) :
    (dot_S1536x128_S128x128_S1536x128_1_0_0_1_n_n.rhsIdx i c 1).val = (i 1).val := by
  unfold DotDims.rhsIdx
  rw [dif_neg (show ¬(1 : Fin S128x128.rank) ∈ dot_S1536x128_S128x128_S1536x128_1_0_0_1_n_n.rhsBatch by decide), dif_pos (show (1 : Fin S128x128.rank) ∈ dot_S1536x128_S128x128_S1536x128_1_0_0_1_n_n.rhsNonContracting by decide)]
  rfl

/-- A `[1536, 128]` by `[128, 128]` matrix product into the zero splat, at `(p, q)`: the sum over the contracted
    feature `k` of the left operand at `(p, k)` times the right operand at `(k, q)`. -/
theorem matmul_zero_apply (lhs : FVec Ideal S1536x128 .bf16) (rhs : FVec Ideal S128x128 .bf16) (p : Fin 1536) (q : Fin 128) :
    matmul dot_S1536x128_S128x128_S1536x128_1_0_0_1_n_n none lhs rhs (constant S1536x128 .f32 0x00000000#32) (ix2 p q)
      = ∑ k : Fin 128, lhs (ix2 p k) * rhs (ix2 k q) := by
  refine (Ideal.matmul_constant_zero_apply dot_S1536x128_S128x128_S1536x128_1_0_0_1_n_n none lhs rhs (ix2 p q)).trans ?_
  rw [← Equiv.sum_comp (ValueIdx.contrEquiv1 dot_S1536x128_S128x128_S1536x128_1_0_0_1_n_n 128 rfl rfl).symm]
  refine Finset.sum_congr rfl fun k _ => ?_
  have hk := ValueIdx.contrEquiv1_symm_val dot_S1536x128_S128x128_S1536x128_1_0_0_1_n_n 128 rfl rfl k
  have el : dot_S1536x128_S128x128_S1536x128_1_0_0_1_n_n.lhsIdx (ix2 p q) ((ValueIdx.contrEquiv1 dot_S1536x128_S128x128_S1536x128_1_0_0_1_n_n 128 rfl rfl).symm k) = ix2 p k := funext fun a => Fin.ext (by
    match a with
    | ⟨0, _⟩ => exact lhsIdx_row _ _
    | ⟨1, _⟩ => exact (lhsIdx_contr _ _).trans hk)
  have er : dot_S1536x128_S128x128_S1536x128_1_0_0_1_n_n.rhsIdx (ix2 p q) ((ValueIdx.contrEquiv1 dot_S1536x128_S128x128_S1536x128_1_0_0_1_n_n 128 rfl rfl).symm k) = ix2 k q := funext fun a => Fin.ext (by
    match a with
    | ⟨0, _⟩ => exact (rhsIdx_contr _ _).trans hk
    | ⟨1, _⟩ => exact rhsIdx_col _ _)
  rw [el, er]

/-- The bias row `[1, 128]` repeated over the 1536 rows, at `(p, q)`: the row at `(0, q)`. -/
theorem biasRow_apply (b : FVec Ideal S1x128 .f32) (p : Fin 1536) (q : Fin 128) :
    broadcastTo S1536x128 b broadcasts_S1x128_S1536x128 (ix2 p q) = b (ix2 (0 : Fin 1) q) :=
  broadcastTo_1b_ab_apply b broadcasts_S1x128_S1536x128 p q

/-- THE BODY'S RESULT AT `(p, q)`: the two products added, plus the bias, clamped below at zero. -/
theorem pay_apply (v0 : Vec Ideal S1536x8x128 .bf16) (v6 : Vec Ideal S1536x128 .bf16) (v9 v11 : Vec Ideal S128x128 .f32)
    (v16 : Vec Ideal S1x128 .f32) (p : Fin 1536) (q : Fin 128) :
    k1_pay1 (F := Ideal) v0 v6 v9 v11 v16 (ix2 p q)
      = max (((∑ k : Fin 128, (v6 (ix2 p k) : EReal) * (v9 (ix2 k q) : EReal))
              + (∑ k : Fin 128, Ideal.div (∑ n : Fin 8, (v0 (ix3 p n k) : EReal)) (Ideal.ofBits .f32 0x41000000#32) * (v11 (ix2 k q) : EReal)))
              + (v16 (ix2 (0 : Fin 1) q) : EReal))
          (Ideal.ofBits .f32 0x00000000#32) := by
  unfold k1_pay1
  simp only [shapeCast_self]
  refine (truncf_apply (φ := .f32) (ψ := .bf16) _ bitsLt_bf16_f32 (ix2 p q)).trans ?_
  refine (maximumf_apply (φ := .f32) _ _ (ix2 p q)).trans ?_
  refine congrArg₂ max ?_ rfl
  refine (addf_apply (φ := .f32) _ _ (ix2 p q)).trans ?_
  refine congrArg₂ (· + ·) ?_ (biasRow_apply v16 p q)
  refine (addf_apply (φ := .f32) _ _ (ix2 p q)).trans ?_
  refine congrArg₂ (· + ·) (matmul_zero_apply _ _ p q) ?_
  refine (matmul_zero_apply _ _ p q).trans ?_
  refine Finset.sum_congr rfl fun k _ => ?_
  refine congrArg₂ (· * ·) ?_ rfl
  refine (truncf_apply (φ := .f32) (ψ := .bf16) _ bitsLt_bf16_f32 (ix2 p k)).trans ?_
  refine (divf_apply (φ := .f32) _ _ (ix2 p k)).trans ?_
  refine congrArg₂ Ideal.div ?_ rfl
  exact nbrSum_apply _ p k

end Cert.KernelIdeal.RegionValue.L1

end
-- ==== Proof.L1Ref.lean ====
import proofs.«138030_j60799557042640_2_alg».proof.Proof.Gen.ReferenceIdeal.Read
import Idealize.ShloMosaic.Lib.ValueLayout

/-!
The reference's second layer read entry by entry.

At node `r` and output feature `q` the reference computes

  max ( ∑ₖ h(r,k) · W₁(k,q) + ∑ₖ (0 + ∑ₙ g(r,n,k)) / 8 · W₂(k,q) + b(q) , 0 )

where `h` is the first 13824 rows of the first layer's output, `g` the gathered features of the eight neighbours,
`W₁`, `W₂` the weight matrices and `b` the bias vector. The stages are opened down to `h` and `g`, which stay
named.
-/

noncomputable section

namespace Cert.KernelIdeal.RegionValue.L1

open Cert.ReferenceIdeal Cert.ReferenceIdeal.Read Idealize.ShloMosaic Idealize.ShloMosaic.TcCoe Idealize.SL.Sem
open Idealize.ShloMosaic.ValueIdx

/-- The left factor of either product at node `r`, contracted feature `k`. -/
theorem lidx31_eq (r : Fin 13824) (q k : Fin 128) : lidx_main_v31 (ix2 r q) k = ix2 r k :=
  funext fun a => Fin.ext (by match a with | ⟨0, _⟩ => rfl | ⟨1, _⟩ => rfl)
theorem ridx31_eq (r : Fin 13824) (q k : Fin 128) : ridx_main_v31 (ix2 r q) k = ix2 k q :=
  funext fun a => Fin.ext (by match a with | ⟨0, _⟩ => rfl | ⟨1, _⟩ => rfl)
theorem lidx32_eq (r : Fin 13824) (q k : Fin 128) : lidx_main_v32 (ix2 r q) k = ix2 r k :=
  funext fun a => Fin.ext (by match a with | ⟨0, _⟩ => rfl | ⟨1, _⟩ => rfl)
theorem ridx32_eq (r : Fin 13824) (q k : Fin 128) : ridx_main_v32 (ix2 r q) k = ix2 k q :=
  funext fun a => Fin.ext (by match a with | ⟨0, _⟩ => rfl | ⟨1, _⟩ => rfl)
/-- The neighbour sum at `(r, k)` runs over the entries `(r, n, k)`. -/
theorem idx27_eq (r : Fin 13824) (k : Fin 128) (n : Fin 8) : idx_main_v27 (ix2 r k) n = ix3 r n k :=
  funext fun a => Fin.ext (by match a with | ⟨0, _⟩ => rfl | ⟨1, _⟩ => rfl | ⟨2, _⟩ => rfl)
/-- The bias broadcast at `(r, q)` reads the bias vector at `q`. -/
theorem idx3435_eq (r : Fin 13824) (q : Fin 128) : idx_main_v34 (idx_main_v35 (ix2 r q)) = ix1 q :=
  funext fun a => Fin.ext (by match a with | ⟨0, _⟩ => rfl)

/-- THE REFERENCE'S LAYER AT `(r, q)`. -/
theorem ref_apply (x0 : (⟨S1119744x128, .f32⟩ : BufTy).Contents (Elt Ideal)) (x1 : (⟨S995328, .i32⟩ : BufTy).Contents (Elt Ideal)) (x2 : (⟨S110592, .i32⟩ : BufTy).Contents (Elt Ideal))
    (x4 x5 : (⟨S128x128, .f32⟩ : BufTy).Contents (Elt Ideal)) (x6 : (⟨S128, .f32⟩ : BufTy).Contents (Elt Ideal))
    (x7 x8 : (⟨S128x128, .f32⟩ : BufTy).Contents (Elt Ideal)) (x9 : (⟨S128, .f32⟩ : BufTy).Contents (Elt Ideal)) (r : Fin 13824) (q : Fin 128) :
    val_main_v37 (F := Ideal) x0 x1 x2 x4 x5 x6 x7 x8 x9 (ix2 r q)
      = max (((∑ k : Fin 128, (val_main_v30 (F := Ideal) x0 x1 x4 x5 x6 (ix2 r k) : EReal) * (x7 (ix2 k q) : EReal))
              + (∑ k : Fin 128, Ideal.div (∑ n : Fin 8, (val_main_v26 (F := Ideal) x0 x1 x2 x4 x5 x6 (ix3 r n k) : EReal)) (Ideal.ofBits .f32 0x41000000#32) * (x8 (ix2 k q) : EReal)))
              + (x9 (ix1 q) : EReal))
          (Ideal.ofBits .f32 0x00000000#32) := by
  rw [val_main_v37_apply, val_main_v36_apply, val_main_v33_apply, val_main_v31_apply, val_main_v32_apply, val_main_v35_apply, val_main_v34_apply, val_main_call1_v0_apply, val_main_call1_cst_apply]
  simp only [val_main_v29_apply, val_main_v27_apply, val_main_v28_apply, val_main_cst_5_apply, val_main_cst_4_apply,
    lidx31_eq, ridx31_eq, lidx32_eq, ridx32_eq, idx27_eq, idx3435_eq,
    Ideal.ofBits_def, Ideal.addf_def, Ideal.maximumf_def, Ideal.hostDivf_def, Ideal.ofBits_zero_f32, zero_add]

end Cert.KernelIdeal.RegionValue.L1

end
-- ==== Proof.L1.lean ====
import proofs.«138030_j60799557042640_2_alg».proof.Proof.Gen.KernelIdeal.Frame
import proofs.«138030_j60799557042640_2_alg».proof.Proof.Gen.ReferenceIdeal.Read
import proofs.«138030_j60799557042640_2_alg».proof.Proof.L1Pay
import proofs.«138030_j60799557042640_2_alg».proof.Proof.L1Ref

/-!
The second layer's output array after its nine grid points.

Point `t` works on rows `1536·t … 1536·t + 1535` of the 13824-row arrays: it reads those rows of the nodes' own
features and of their neighbours' features, the two weight matrices and the bias row whole, and writes those rows of the
output. Row `p` of block `t` is node `1536·t + p`, so what point `t` writes back is block `t` of the reference's layer
read entry by entry; the nine blocks cover the array (node `r` lies in block `r / 1536`).
-/

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

namespace L1

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices over the grid: the three row-blocked windows sit at block `t` on the row axis, every other
    block index is zero. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p` of block `t` of the nodes' own features is node `1536·t + p`. -/
theorem self_blk (c : Dev nD) (t : Fin cfg1.N) (p : Fin 1536) (k : Fin 128) (hr : 1536 * t.val + p.val < 13824) :
    (iblk1 (F := Ideal) V c 0 t : Vec Ideal S1536x128 .bf16) (ix2 p k)
      = (V c main_v19 : S13824x128.Idx → EReal) (ix2 ⟨1536 * t.val + p.val, hr⟩ k) := by
  obtain ⟨e0, e1, -⟩ := idx_facts t
  unfold iblk1
  rw [View.read_apply]
  show V c main_v19 _ = V c main_v19 _
  congr 1
  funext a
  apply Fin.ext
  match a with
  | ⟨0, _⟩ => show win1_0.index t (0 : Fin 2) * 1536 + 1 * p.val = 1536 * t.val + p.val; rw [e0]; omega
  | ⟨1, _⟩ => show win1_0.index t (1 : Fin 2) * 128 + 1 * k.val = k.val; rw [e1]; omega

/-- Row `p` of block `t` of the neighbours' features is node `1536·t + p`, neighbour and feature unchanged. -/
theorem nbr_blk (c : Dev nD) (t : Fin cfg1.N) (p : Fin 1536) (n : Fin 8) (k : Fin 128) (hr : 1536 * t.val + p.val < 13824) :
    (iblk1 (F := Ideal) V c 1 t : Vec Ideal S1536x8x128 .bf16) (ix3 p n k)
      = (V c main_v18 : S13824x8x128.Idx → EReal) (ix3 ⟨1536 * t.val + p.val, hr⟩ n k) := by
  obtain ⟨-, -, e0, e1, e2, -⟩ := idx_facts t
  unfold iblk1
  rw [View.read_apply]
  show V c main_v18 _ = V c main_v18 _
  congr 1
  funext a
  apply Fin.ext
  match a with
  | ⟨0, _⟩ => show win1_1.index t (0 : Fin 3) * 1536 + 1 * p.val = 1536 * t.val + p.val; rw [e0]; omega
  | ⟨1, _⟩ => show win1_1.index t (1 : Fin 3) * 8 + 1 * n.val = n.val; rw [e1]; omega
  | ⟨2, _⟩ => show win1_1.index t (2 : Fin 3) * 128 + 1 * k.val = k.val; rw [e2]; omega

/-- The first weight matrix is read whole at every point. -/
theorem w1_blk (c : Dev nD) (t : Fin cfg1.N) (k q : Fin 128) :
    (iblk1 (F := Ideal) V c 2 t : Vec Ideal S128x128 .f32) (ix2 k q) = (V c main_arg7 : S128x128.Idx → EReal) (ix2 k q) := by
  obtain ⟨-, -, -, -, -, e0, e1, -⟩ := idx_facts t
  unfold iblk1
  rw [View.read_apply]
  show V c main_arg7 _ = V c main_arg7 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight matrix is read whole at every point. -/
theorem w2_blk (c : Dev nD) (t : Fin cfg1.N) (k q : Fin 128) :
    (iblk1 (F := Ideal) V c 3 t : Vec Ideal S128x128 .f32) (ix2 k q) = (V c main_arg8 : S128x128.Idx → EReal) (ix2 k q) := by
  obtain ⟨-, -, -, -, -, -, -, e0, e1, -⟩ := idx_facts t
  unfold iblk1
  rw [View.read_apply]
  show V c main_arg8 _ = V c main_arg8 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row is read whole at every point. -/
theorem bias_blk (c : Dev nD) (t : Fin cfg1.N) (u : Fin 1) (q : Fin 128) :
    (iblk1 (F := Ideal) V c 4 t : Vec Ideal S1x128 .f32) (ix2 u q) = (V c main_v20 : S1x128.Idx → EReal) (ix2 u q) := by
  obtain ⟨-, -, -, -, -, -, -, -, -, e0, e1, -⟩ := idx_facts t
  unfold iblk1
  rw [View.read_apply]
  show V c main_v20 _ = V c main_v20 _
  congr 1
  funext a
  apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-- Row `p` of the output's block `t` lies at node `1536·t + p` of the output array. -/
theorem out_emb (t : Fin cfg1.N) (p : Fin 1536) (q : Fin 128) (hr : 1536 * t.val + p.val < 13824) :
    (((cfg1.win 5).blk t).view.emb (ix2 p q) : S13824x128.Idx) = ix2 ⟨1536 * t.val + p.val, hr⟩ q := by
  obtain ⟨-, -, -, -, -, -, -, -, -, -, -, e0, e1⟩ := idx_facts t
  funext a
  apply Fin.ext
  match a with
  | ⟨0, _⟩ => show win1_5.index t (0 : Fin 2) * 1536 + 1 * p.val = 1536 * t.val + p.val; rw [e0]; omega
  | ⟨1, _⟩ => show win1_5.index t (1 : Fin 2) * 128 + 1 * q.val = q.val; rw [e1]; omega

/-- WHAT POINT `t` WRITES BACK is block `t` of the reference's layer. -/
theorem flushed_eq (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (h0 : V c main_v19 = Cert.ReferenceIdeal.Read.val_main_v30 x0 x1 x4 x5 x6)
    (h1 : V c main_v18 = Cert.ReferenceIdeal.Read.val_main_v26 x0 x1 x2 x4 x5 x6)
    (h2 : V c main_arg7 = x7) (h3 : V c main_arg8 = x8)
    (h4 : V c main_v20 = shapeCast S1x128 x9 shapeCasts_S128_S1x128) (t : Fin cfg1.N) :
    (dat1 (F := Ideal) V c).flushed 5 t
      = ((cfg1.win 5).blk t).view.read (Elt Ideal) (Cert.ReferenceIdeal.Read.val_main_v37 x0 x1 x2 x4 x5 x6 x7 x8 x9) := by
  have hN : cfg1.N = 9 := N_1
  show (cfg1.win 5).cut (grid1.coords t) ((dat1 V c).after 5 t) = _
  rw [after1_5]
  unfold out1_5
  rw [View.canon_unit_zero zeros2]
  simp only [View.ld_unit_zero (S := S1536x128) zeros2, View.ld_unit_zero (S := S1536x8x128) zeros3,
    View.ld_unit_zero (S := S128x128) zeros2, View.ld_unit_zero (S := S1x128) zeros2]
  funext j
  obtain ⟨p, q, rfl⟩ : ∃ (p : Fin 1536) (q : Fin 128), j = ix2 p q := ⟨j 0, j 1, eq_ix2 j⟩
  have hr : 1536 * t.val + p.val < 13824 := by have := t.isLt; have := p.isLt; omega
  show k1_pay1 (F := Ideal) (iblk1 V c 1 t) (iblk1 V c 0 t) (iblk1 V c 2 t) (iblk1 V c 3 t) (iblk1 V c 4 t) (ix2 p q)
    = Cert.ReferenceIdeal.Read.val_main_v37 x0 x1 x2 x4 x5 x6 x7 x8 x9 (((cfg1.win 5).blk t).view.emb (ix2 p q))
  rw [out_emb t p q hr, ref_apply]
  refine (pay_apply (iblk1 V c 1 t) (iblk1 V c 0 t) (iblk1 V c 2 t) (iblk1 V c 3 t) (iblk1 V c 4 t) p q).trans ?_
  simp only [self_blk V c t p _ hr, nbr_blk V c t p _ _ hr, w1_blk V c t, w2_blk V c t, bias_blk V c t]
  rw [h0, h1, h2, h3, h4]
  rw [shapeCast_a_1a_apply x9 shapeCasts_S128_S1x128 (0 : Fin 1) q]

/-- An index of the output array is in point `t`'s block iff each coordinate is in the block's range on its axis. -/
theorem mem_blk (t : Fin cfg1.N) (i : S13824x128.Idx) :
    i ∈ ((cfg1.win 5).blk t).view.set ↔ ∀ a : Fin 2, win1_5.index t a * S1536x128.size a ≤ (i a).val ∧ (i a).val < win1_5.index t a * S1536x128.size a + S1536x128.size a := by
  show i ∈ ((View.whole main_v21).slice (win1_5.rect t)).set ↔ _
  rw [View.set_slice_whole, Rect.mem_set_unit]
  exact Iff.rfl

/-- THE NINE BLOCKS COVER THE ARRAY: node `r` lies in block `r / 1536`. -/
theorem cover (i : S13824x128.Idx) : ∃ t : Fin cfg1.N, (cfg1.win 5).flush t = true ∧ i ∈ ((cfg1.win 5).blk t).view.set := by
  have hN : cfg1.N = 9 := N_1
  have hi0 : (i 0).val < 13824 := (i 0).isLt
  have hi1 : (i 1).val < 128 := (i 1).isLt
  have ht : (i 0).val / 1536 < cfg1.N := by rw [hN]; omega
  obtain ⟨-, -, -, -, -, -, -, -, -, -, -, e0, e1⟩ := idx_facts ⟨(i 0).val / 1536, ht⟩
  refine ⟨⟨(i 0).val / 1536, ht⟩, flush1_5 _, ?_⟩
  rw [mem_blk]
  intro a
  match a with
  | ⟨0, _⟩ =>
    show win1_5.index ⟨(i 0).val / 1536, ht⟩ (0 : Fin 2) * 1536 ≤ (i 0).val ∧ (i 0).val < win1_5.index ⟨(i 0).val / 1536, ht⟩ (0 : Fin 2) * 1536 + 1536
    rw [e0]
    show (i 0).val / 1536 * 1536 ≤ (i 0).val ∧ (i 0).val < (i 0).val / 1536 * 1536 + 1536
    omega
  | ⟨1, _⟩ =>
    show win1_5.index ⟨(i 0).val / 1536, ht⟩ (1 : Fin 2) * 128 ≤ (i 1).val ∧ (i 1).val < win1_5.index ⟨(i 0).val / 1536, ht⟩ (1 : Fin 2) * 128 + 128
    rw [e1]
    omega

end L1

variable (V : (c : Dev nD) → (b : Ref sig .tc) → Buf (Elt Ideal) ((c : Thread nD τ).loc b))

/-- THE SECOND LAYER'S OUTPUT ARRAY after the region is the reference's layer: every point writes back its block of it,
    and the blocks cover the array. -/
theorem layer1 (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (h0 : V c main_v19 = Cert.ReferenceIdeal.Read.val_main_v30 x0 x1 x4 x5 x6)
    (h1 : V c main_v18 = Cert.ReferenceIdeal.Read.val_main_v26 x0 x1 x2 x4 x5 x6)
    (h2 : V c main_arg7 = x7) (h3 : V c main_arg8 = x8)
    (h4 : V c main_v20 = shapeCast S1x128 x9 shapeCasts_S128_S1x128) :
    (dat1 (F := Ideal) V c).arrAt 5 cfg1.N = Cert.ReferenceIdeal.Read.val_main_v37 x0 x1 x2 x4 x5 x6 x7 x8 x9 :=
  (dat1 (F := Ideal) V c).arrAt_eq_of_cover 5 (Cert.ReferenceIdeal.Read.val_main_v37 x0 x1 x2 x4 x5 x6 x7 x8 x9)
    (fun t _ => L1.flushed_eq V c x0 x1 x2 x4 x5 x6 x7 x8 x9 h0 h1 h2 h3 h4 t) L1.cover

end Cert.KernelIdeal.RegionValue

end
-- ==== Proof.L2Pay.lean ====
import proofs.«138030_j60799557042640_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue.L2

open Cert.KernelIdeal Cert.KernelIdeal.Gen Idealize.ShloMosaic Idealize.SL.Sem
open Idealize.ShloMosaic.ValueIdx

/-! # The third layer's body at an index

The body's one stored value, read at row `p` and column `q`: the row of the node features times the first
weight matrix, plus the mean over the 8 neighbours' features times the second weight matrix, plus the bias. -/

/-- The sum over the 8 neighbours of node `p`, at feature `k`. -/
theorem neighbourSum_apply (src : FVec Ideal S1536x8x128 .f32) (hφ : FKind.Formats .f32)
    (hacc : (0x00000000#32 : BitVec 32) = FKind.add.neutral .f32 hφ) (p : Fin 1536) (k : Fin 128) :
    multiReduction .add [1] S1536x128 src 0x00000000#32 reduces_S1536x8x128_S1536x128 hφ hacc (ix2 p k)
      = ∑ n : Fin 8, src (ix3 p n k) := by
  refine (Ideal.multiReduction_add_single src 0x00000000#32 reduces_S1536x8x128_S1536x128 hφ hacc (ix2 p k)).trans ?_
  refine Finset.sum_congr rfl fun n _ => congrArg src ?_
  funext a; apply Fin.ext
  match a with
  | ⟨0, _⟩ => rfl
  | ⟨1, _⟩ => rfl
  | ⟨2, _⟩ => rfl

/-- The left operand's index of the product at output `j` and contraction index `κ`: row `j 0`, … -/
theorem lhsIdx_0 (j : S1536x128.Idx) (κ : dot_S1536x128_S128x128_S1536x128_1_0_0_1_n_n.contr.Idx) :
    (dot_S1536x128_S128x128_S1536x128_1_0_0_1_n_n.lhsIdx j κ 0).val = (j 0).val := by
  unfold DotDims.lhsIdx
  rw [dif_neg (show ¬(0 : Fin S1536x128.rank) ∈ dot_S1536x128_S128x128_S1536x128_1_0_0_1_n_n.lhsBatch by decide), dif_pos (show (0 : Fin S1536x128.rank) ∈ dot_S1536x128_S128x128_S1536x128_1_0_0_1_n_n.lhsNonContracting by decide)]
  rfl
/-- … column `κ`. -/
theorem lhsIdx_1 (j : S1536x128.Idx) (κ : dot_S1536x128_S128x128_S1536x128_1_0_0_1_n_n.contr.Idx) :
    (dot_S1536x128_S128x128_S1536x128_1_0_0_1_n_n.lhsIdx j κ 1).val = (κ ⟨0, by decide⟩).val :=
  dot_S1536x128_S128x128_S1536x128_1_0_0_1_n_n.lhsIdx_val_of_single rfl j κ
/-- The right operand's index: row `κ`, … -/
theorem rhsIdx_0 (j : S1536x128.Idx) (κ : dot_S1536x128_S128x128_S1536x128_1_0_0_1_n_n.contr.Idx) :
    (dot_S1536x128_S128x128_S1536x128_1_0_0_1_n_n.rhsIdx j κ 0).val = (κ ⟨0, by decide⟩).val :=
  dot_S1536x128_S128x128_S1536x128_1_0_0_1_n_n.rhsIdx_val_of_single rfl j κ
/-- … column `j 1`. -/
theorem rhsIdx_1 (j : S1536x128.Idx) (κ : dot_S1536x128_S128x128_S1536x128_1_0_0_1_n_n.contr.Idx) :
    (dot_S1536x128_S128x128_S1536x128_1_0_0_1_n_n.rhsIdx j κ 1).val = (j 1).val := by
  unfold DotDims.rhsIdx
  rw [dif_neg (show ¬(1 : Fin S128x128.rank) ∈ dot_S1536x128_S128x128_S1536x128_1_0_0_1_n_n.rhsBatch by decide), dif_pos (show (1 : Fin S128x128.rank) ∈ dot_S1536x128_S128x128_S1536x128_1_0_0_1_n_n.rhsNonContracting by decide)]
  rfl

/-- A [1536,128] × [128,128] product into the zero accumulator, at `(p, q)`: the sum over `k` of the left
    operand at `(p, k)` times the right operand at `(k, q)`. -/
theorem matmulZero_apply (lhs : FVec Ideal S1536x128 .bf16) (rhs : FVec Ideal S128x128 .bf16) (p : Fin 1536) (q : Fin 128) :
    matmul dot_S1536x128_S128x128_S1536x128_1_0_0_1_n_n none lhs rhs (constant S1536x128 .f32 0x00000000#32) (ix2 p q)
      = ∑ k : Fin 128, lhs (ix2 p k) * rhs (ix2 k q) := by
  refine (Ideal.matmul_constant_zero_apply dot_S1536x128_S128x128_S1536x128_1_0_0_1_n_n none lhs rhs (ix2 p q)).trans ?_
  rw [← Equiv.sum_comp (contrEquiv1 dot_S1536x128_S128x128_S1536x128_1_0_0_1_n_n 128 rfl rfl).symm]
  refine Finset.sum_congr rfl fun k _ => ?_
  have hk := contrEquiv1_symm_val dot_S1536x128_S128x128_S1536x128_1_0_0_1_n_n 128 rfl rfl k
  have el : dot_S1536x128_S128x128_S1536x128_1_0_0_1_n_n.lhsIdx (ix2 p q) ((contrEquiv1 dot_S1536x128_S128x128_S1536x128_1_0_0_1_n_n 128 rfl rfl).symm k) = ix2 p k := funext fun a => Fin.ext (by
    match a with
    | ⟨0, _⟩ => exact lhsIdx_0 _ _
    | ⟨1, _⟩ => exact (lhsIdx_1 _ _).trans hk)
  have er : dot_S1536x128_S128x128_S1536x128_1_0_0_1_n_n.rhsIdx (ix2 p q) ((contrEquiv1 dot_S1536x128_S128x128_S1536x128_1_0_0_1_n_n 128 rfl rfl).symm k) = ix2 k q := funext fun a => Fin.ext (by
    match a with
    | ⟨0, _⟩ => exact (rhsIdx_0 _ _).trans hk
    | ⟨1, _⟩ => exact rhsIdx_1 _ _)
  rw [el, er]

/-- THE BODY'S VALUE AT `(p, q)`, over variables for the five loaded blocks: `x` the node features, `nb` the
    neighbours' features, `w₁`, `w₂` the weights and `b` the bias row. -/
theorem pay_apply (nb : Vec Ideal S1536x8x128 .bf16) (x : Vec Ideal S1536x128 .bf16) (w₁ w₂ : Vec Ideal S128x128 .f32)
    (b : Vec Ideal S1x128 .f32) (p : Fin 1536) (q : Fin 128) :
    k2_pay1 (F := Ideal) nb x w₁ w₂ b (ix2 p q)
      = (∑ k : Fin 128, x (ix2 p k) * w₁ (ix2 k q))
        + (∑ k : Fin 128, Ideal.div (∑ n : Fin 8, nb (ix3 p n k)) (Ideal.ofBits .f32 0x41000000#32) * w₂ (ix2 k q))
        + b (ix2 (0 : Fin 1) q) := by
  unfold k2_pay1
  rw [addf_apply, addf_apply]
  refine congrArg₂ (· + ·) (congrArg₂ (· + ·) ?_ ?_) ?_
  · refine (matmulZero_apply _ _ p q).trans (Finset.sum_congr rfl fun k _ => congrArg (· * _) ?_)
    exact congrFun (shapeCast_self x _) _
  · refine (matmulZero_apply _ _ p q).trans (Finset.sum_congr rfl fun k _ => congrArg (· * _) ?_)
    refine congrArg (Ideal.div · _) ((neighbourSum_apply _ _ _ p k).trans (Finset.sum_congr rfl fun n _ => ?_))
    exact congrFun (shapeCast_self nb _) _
  · refine (broadcastTo_1b_ab_apply _ _ p q).trans ?_
    exact congrFun (shapeCast_self b _) _

end Cert.KernelIdeal.RegionValue.L2
end
-- ==== Proof.L2Ref.lean ====
import proofs.«138030_j60799557042640_2_alg».proof.Proof.L2Pay
import proofs.«138030_j60799557042640_2_alg».proof.Proof.Gen.ReferenceIdeal.Read

noncomputable section

namespace Cert.KernelIdeal.RegionValue.L2

open Cert.KernelIdeal Cert.KernelIdeal.Gen Idealize.ShloMosaic Idealize.SL.Sem
open Idealize.ShloMosaic.ValueIdx

/-! # The body's value on the reference's arrays is the reference's third layer

With the node features `val_main_v49`, the neighbours' features `val_main_v45`, the two weight matrices and the
bias row as the five blocks, the body's stored value is, index by index, the reference's stage `val_main_v55`:
both are the features times the first weights, plus the mean of the 8 neighbours times the second weights, plus
the bias; the reference's sum over the neighbours starts from its initial value `0`. -/

theorem pay_eq_ref (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal)) (j : S1536x128.Idx) :
    k2_pay1 (F := Ideal) (Cert.ReferenceIdeal.Read.val_main_v45 x0 x1 x2 x3 x4 x5 x6 x7 x8 x9) (Cert.ReferenceIdeal.Read.val_main_v49 x0 x1 x2 x4 x5 x6 x7 x8 x9)
        x10 x11 (shapeCast S1x128 x12 shapeCasts_S128_S1x128) j
      = Cert.ReferenceIdeal.Read.val_main_v55 x0 x1 x2 x3 x4 x5 x6 x7 x8 x9 x10 x11 x12 j := by
  obtain ⟨p, q, rfl⟩ : ∃ (p : Fin 1536) (q : Fin 128), j = ix2 p q := ⟨j 0, j 1, eq_ix2 j⟩
  rw [Cert.ReferenceIdeal.Read.val_main_v55_apply, Cert.ReferenceIdeal.Read.val_main_v52_apply, Cert.ReferenceIdeal.Read.val_main_v50_apply,
    Cert.ReferenceIdeal.Read.val_main_v51_apply, Cert.ReferenceIdeal.Read.val_main_v54_apply, Cert.ReferenceIdeal.Read.val_main_v53_apply]
  refine (pay_apply _ _ _ _ _ p q).trans ?_
  rw [Ideal.addf_def, Ideal.addf_def]
  refine congrArg₂ (· + ·) (congrArg₂ (· + ·) (Finset.sum_congr rfl fun k _ => ?_) (Finset.sum_congr rfl fun k _ => ?_)) ?_
  · -- the features' row times the first weights' column: the two operand indices are (p, k) and (k, q)
    have el : Cert.ReferenceIdeal.Read.lidx_main_v50 (ix2 p q) k = ix2 p k :=
      funext fun a => Fin.ext (by match a with | ⟨0, _⟩ => rfl | ⟨1, _⟩ => rfl)
    have er : Cert.ReferenceIdeal.Read.ridx_main_v50 (ix2 p q) k = ix2 k q :=
      funext fun a => Fin.ext (by match a with | ⟨0, _⟩ => rfl | ⟨1, _⟩ => rfl)
    rw [el, er]
  · -- the neighbours' mean at (p, k) times the second weights at (k, q); the reference's sum starts from 0
    have el : Cert.ReferenceIdeal.Read.lidx_main_v51 (ix2 p q) k = ix2 p k :=
      funext fun a => Fin.ext (by match a with | ⟨0, _⟩ => rfl | ⟨1, _⟩ => rfl)
    have er : Cert.ReferenceIdeal.Read.ridx_main_v51 (ix2 p q) k = ix2 k q :=
      funext fun a => Fin.ext (by match a with | ⟨0, _⟩ => rfl | ⟨1, _⟩ => rfl)
    rw [el, er, Cert.ReferenceIdeal.Read.val_main_v48_apply, Cert.ReferenceIdeal.Read.val_main_v46_apply,
      Cert.ReferenceIdeal.Read.val_main_v47_apply, Cert.ReferenceIdeal.Read.val_main_cst_8_apply,
      Cert.ReferenceIdeal.Read.val_main_cst_9_apply, Ideal.hostDivf_def]
    refine congrArg (· * _) (congrArg₂ Ideal.div ?_ rfl)
    refine ((zero_add _).symm.trans (congrArg (· + _) Ideal.ofBits_zero_f32.symm)).trans ?_
    refine congrArg (_ + ·) (Finset.sum_congr rfl fun n _ => congrArg _ ?_)
    exact funext fun a => Fin.ext (by match a with | ⟨0, _⟩ => rfl | ⟨1, _⟩ => rfl | ⟨2, _⟩ => rfl)
  · -- the bias row at column q
    refine (shapeCast_a_1a_apply x12 _ (0 : Fin 1) q).trans (congrArg x12 ?_)
    exact funext fun a => Fin.ext (by match a with | ⟨0, _⟩ => rfl)

end Cert.KernelIdeal.RegionValue.L2
end
-- ==== Proof.L2.lean ====
import proofs.«138030_j60799557042640_2_alg».proof.Proof.Gen.KernelIdeal.Frame
import proofs.«138030_j60799557042640_2_alg».proof.Proof.Gen.ReferenceIdeal.Read
import proofs.«138030_j60799557042640_2_alg».proof.Proof.L2Ref

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

namespace L2

/-! # From the one block to the array

The third layer's grid has one point, and every window's block there is its whole array at block index zero:
each input block is its array as the region finds it, and the one write-back writes the whole output array. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The node features' block is the whole array. -/
theorem blk0 (c : Dev nD) : iblk2 (F := Ideal) V c 0 t2_0 = V c main_v30 := by
  unfold iblk2
  have hz' : (fun a => win2_0.index t2_0 a * main_v30.ty.shape.size a) = fun _ => 0 := funext fun a => by fin_cases a <;> decide +kernel
  exact Memref.read_access_unit_zero (Elt Ideal) main_v30 hz' (fun a => by rw [congrFun hz' a]; simp) (V c main_v30)

/-- The neighbours' features' block is the whole array. -/
theorem blk1 (c : Dev nD) : iblk2 (F := Ideal) V c 1 t2_0 = V c main_v29 := by
  unfold iblk2
  have hz' : (fun a => win2_1.index t2_0 a * main_v29.ty.shape.size a) = fun _ => 0 := funext fun a => by fin_cases a <;> decide +kernel
  exact Memref.read_access_unit_zero (Elt Ideal) main_v29 hz' (fun a => by rw [congrFun hz' a]; simp) (V c main_v29)

/-- The first weight matrix's block is the whole matrix. -/
theorem blk2 (c : Dev nD) : iblk2 (F := Ideal) V c 2 t2_0 = V c main_arg10 := by
  unfold iblk2
  have hz' : (fun a => win2_2.index t2_0 a * main_arg10.ty.shape.size a) = fun _ => 0 := funext fun a => by fin_cases a <;> decide +kernel
  exact Memref.read_access_unit_zero (Elt Ideal) main_arg10 hz' (fun a => by rw [congrFun hz' a]; simp) (V c main_arg10)

/-- The second weight matrix's block is the whole matrix. -/
theorem blk3 (c : Dev nD) : iblk2 (F := Ideal) V c 3 t2_0 = V c main_arg11 := by
  unfold iblk2
  have hz' : (fun a => win2_3.index t2_0 a * main_arg11.ty.shape.size a) = fun _ => 0 := funext fun a => by fin_cases a <;> decide +kernel
  exact Memref.read_access_unit_zero (Elt Ideal) main_arg11 hz' (fun a => by rw [congrFun hz' a]; simp) (V c main_arg11)

/-- The bias row's block is the whole row. -/
theorem blk4 (c : Dev nD) : iblk2 (F := Ideal) V c 4 t2_0 = V c main_v31 := by
  unfold iblk2
  have hz' : (fun a => win2_4.index t2_0 a * main_v31.ty.shape.size a) = fun _ => 0 := funext fun a => by fin_cases a <;> decide +kernel
  exact Memref.read_access_unit_zero (Elt Ideal) main_v31 hz' (fun a => by rw [congrFun hz' a]; simp) (V c main_v31)

end L2

/-- WHAT THE ONE POINT WRITES BACK is the block (the whole) of the reference's third layer. -/
theorem L2.flushed_eq (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal))
    (h0 : V c main_v30 = Cert.ReferenceIdeal.Read.val_main_v49 x0 x1 x2 x4 x5 x6 x7 x8 x9)
    (h1 : V c main_v29 = Cert.ReferenceIdeal.Read.val_main_v45 x0 x1 x2 x3 x4 x5 x6 x7 x8 x9)
    (h2 : V c main_arg10 = x10) (h3 : V c main_arg11 = x11)
    (h4 : V c main_v31 = shapeCast S1x128 x12 shapeCasts_S128_S1x128) (t : Fin cfg2.N) :
    (dat2 (F := Ideal) V c).flushed 5 t = ((cfg2.win 5).blk t).view.read (Elt Ideal) (Cert.ReferenceIdeal.Read.val_main_v55 x0 x1 x2 x3 x4 x5 x6 x7 x8 x9 x10 x11 x12) := by
  obtain rfl : t = t2_0 := fin_N2 t
  show (cfg2.win 5).cut (grid2.coords t2_0) ((dat2 V c).after 5 t2_0) = _
  rw [after2_5]
  unfold out2_5
  rw [View.canon_unit_zero L2.hz2]
  simp only [View.ld_unit_zero (S := S1536x8x128) L2.hz3, View.ld_unit_zero (S := S1536x128) L2.hz2, View.ld_unit_zero (S := S128x128) L2.hz2, View.ld_unit_zero (S := S1x128) L2.hz2]
  rw [L2.blk0, L2.blk1, L2.blk2, L2.blk3, L2.blk4, h0, h1, h2, h3, h4]
  have hz' : (fun a => win2_5.index t2_0 a * main_v32.ty.shape.size a) = fun _ => 0 := funext fun a => by fin_cases a <;> decide +kernel
  refine Eq.trans ?_ (Memref.read_access_unit_zero (Elt Ideal) main_v32 hz' (fun a => by rw [congrFun hz' a]; simp) (Cert.ReferenceIdeal.Read.val_main_v55 x0 x1 x2 x3 x4 x5 x6 x7 x8 x9 x10 x11 x12)).symm
  funext j
  exact L2.pay_eq_ref x0 x1 x2 x3 x4 x5 x6 x7 x8 x9 x10 x11 x12 j

/-- The one point's block covers the output array. -/
theorem L2.cover (i : S1536x128.Idx) : ∃ t : Fin cfg2.N, (cfg2.win 5).flush t = true ∧ i ∈ ((cfg2.win 5).blk t).view.set := by
  refine ⟨t2_0, flush2_5 t2_0, ?_⟩
  show i ∈ ((View.whole main_v32).slice (win2_5.rect t2_0)).set
  rw [View.set_slice_whole, Rect.mem_set_unit]
  intro a
  have b0 : (i 0 : Nat) < 1536 := (i 0).isLt
  have b1 : (i 1 : Nat) < 128 := (i 1).isLt
  match a with
  | ⟨0, _⟩ =>
    show win2_5.index t2_0 0 * win2_5.size 0 ≤ (i 0 : Nat) ∧ (i 0 : Nat) < win2_5.index t2_0 0 * win2_5.size 0 + win2_5.xsize (grid2.coords t2_0) 0
    rw [show win2_5.index t2_0 0 * win2_5.size 0 = 0 from by decide +kernel, show win2_5.xsize (grid2.coords t2_0) 0 = 1536 from by decide +kernel]; omega
  | ⟨1, _⟩ =>
    show win2_5.index t2_0 1 * win2_5.size 1 ≤ (i 1 : Nat) ∧ (i 1 : Nat) < win2_5.index t2_0 1 * win2_5.size 1 + win2_5.xsize (grid2.coords t2_0) 1
    rw [show win2_5.index t2_0 1 * win2_5.size 1 = 0 from by decide +kernel, show win2_5.xsize (grid2.coords t2_0) 1 = 128 from by decide +kernel]; omega

/-- THE OUTPUT ARRAY after the third layer's region is the reference's third layer. -/
theorem layer2 (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal))
    (h0 : V c main_v30 = Cert.ReferenceIdeal.Read.val_main_v49 x0 x1 x2 x4 x5 x6 x7 x8 x9)
    (h1 : V c main_v29 = Cert.ReferenceIdeal.Read.val_main_v45 x0 x1 x2 x3 x4 x5 x6 x7 x8 x9)
    (h2 : V c main_arg10 = x10) (h3 : V c main_arg11 = x11)
    (h4 : V c main_v31 = shapeCast S1x128 x12 shapeCasts_S128_S1x128) :
    (dat2 (F := Ideal) V c).arrAt 5 cfg2.N = Cert.ReferenceIdeal.Read.val_main_v55 x0 x1 x2 x3 x4 x5 x6 x7 x8 x9 x10 x11 x12 :=
  (dat2 (F := Ideal) V c).arrAt_eq_of_cover 5 (Cert.ReferenceIdeal.Read.val_main_v55 x0 x1 x2 x3 x4 x5 x6 x7 x8 x9 x10 x11 x12)
    (fun t _ => L2.flushed_eq V c x0 x1 x2 x3 x4 x5 x6 x7 x8 x9 x10 x11 x12 h0 h1 h2 h3 h4 t) L2.cover

end Cert.KernelIdeal.RegionValue
end
-- ==== Proof.PrOps.lean ====
import proofs.«138030_j60799557042640_2_alg».proof.Proof.Gen.KernelIdeal.Frame
import proofs.«138030_j60799557042640_2_alg».proof.Proof.Gen.ReferenceIdeal.Read

noncomputable section

namespace Cert.KernelIdeal.RegionValue.Pr

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! The predictor's elementary operations, each equated — as a whole vector — with the reference's operation
    on the same operands. -/

/-- A tile product into the zero accumulator is the host's contraction of the same operands ([512,128]·[128,128]):
    both are the sum over the contracted axis of the operands' products. -/
theorem matmul_zero_eq_dot (x : FVec Ideal S512x128 .bf16) (w : FVec Ideal S128x128 .bf16) :
    matmul (F := Ideal) dot_S512x128_S128x128_S512x128_1_0_0_1_n_n none x w (constant (F := Ideal) S512x128 .f32 0x00000000#32)
      = Host.dotGeneral (F := Ideal) (φ₁ := .f32) (φ₂ := .f32) Cert.ReferenceIdeal.dot_S512x128_S128x128_S512x128_1_0_0_1_n_n none x w :=
  funext fun j => (Ideal.matmul_constant_zero_apply _ none x w j).trans (Ideal.dotGeneral_apply (φ₁ := .f32) (φ₂ := .f32) _ none .single x w j).symm

/-- The same for the last layer's [512,128]·[128,1] product. -/
theorem matmul_zero_eq_dot_col (x : FVec Ideal S512x128 .bf16) (w : FVec Ideal S128x1 .bf16) :
    matmul (F := Ideal) dot_S512x128_S128x1_S512x1_1_0_0_1_n_n none x w (constant (F := Ideal) S512x1 .f32 0x00000000#32)
      = Host.dotGeneral (F := Ideal) (φ₁ := .f32) (φ₂ := .f32) Cert.ReferenceIdeal.dot_S512x128_S128x1_S512x1_1_0_0_1_n_n none x w :=
  funext fun j => (Ideal.matmul_constant_zero_apply _ none x w j).trans (Ideal.dotGeneral_apply (φ₁ := .f32) (φ₂ := .f32) _ none .single x w j).symm

/-- A change of float format is the identity on the extended reals. -/
theorem truncf_id {s : Shape} (a : FVec Ideal s .f32) (h : FTy.bits .bf16 < FTy.bits .f32) :
    @Eq (s.Idx → EReal) (truncf .bf16 a h) a := rfl

/-- A bias row: the length-128 vector cast to [1,128] and broadcast down the 512 rows is the reference's two
    broadcasts of it; both read entry `q` of the vector at `(p, q)`. -/
theorem row_bias_eq (b : (⟨S128, .f32⟩ : BufTy).Contents (Elt Ideal)) :
    broadcastTo S512x128 (shapeCast S1x128 (shapeCast S1x128 b shapeCasts_S128_S1x128) shapeCasts_S1x128_S1x128) broadcasts_S1x128_S512x128
      = Cert.ReferenceIdeal.Read.val_main_v62 (F := Ideal) b := by
  funext j
  obtain ⟨p, q, rfl⟩ : ∃ (p : Fin 512) (q : Fin 128), j = ix2 p q := ⟨j 0, j 1, eq_ix2 j⟩
  rw [shapeCast_self]
  refine (broadcastTo_apply _ broadcasts_S1x128_S512x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])).trans ?_
  refine (shapeCast_apply b shapeCasts_S128_S1x128 (ix2 (0 : Fin 1) q) (ix1 q) ?_).trans ?_
  · rw [Shape.rowMajor_val_one, Shape.rowMajor_val_two]
    show q.val = 0 * 128 + q.val
    omega
  · rw [Cert.ReferenceIdeal.Read.val_main_v62_apply, Cert.ReferenceIdeal.Read.val_main_v61_apply]
    exact congrArg b (funext fun a => match a with | ⟨0, _⟩ => rfl)

/-- The last bias: the one-entry vector cast to [1,1] and broadcast down the 512 rows is the reference's two
    broadcasts of it; both read its one entry everywhere. -/
theorem col_bias_eq (b : (⟨S1, .f32⟩ : BufTy).Contents (Elt Ideal)) :
    broadcastTo S512x1 (shapeCast S1x1 (shapeCast S1x1 b shapeCasts_S1_S1x1) shapeCasts_S1x1_S1x1) broadcasts_S1x1_S512x1
      = Cert.ReferenceIdeal.Read.val_main_v72 (F := Ideal) b := by
  funext j
  obtain ⟨p, q, rfl⟩ : ∃ (p : Fin 512) (q : Fin 1), j = ix2 p q := ⟨j 0, j 1, eq_ix2 j⟩
  rw [shapeCast_self]
  refine (broadcastTo_apply _ broadcasts_S1x1_S512x1 (ix2 p q) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])).trans ?_
  refine (shapeCast_apply b shapeCasts_S1_S1x1 (ix2 (0 : Fin 1) (0 : Fin 1)) (ix1 (0 : Fin 1)) ?_).trans ?_
  · rw [Shape.rowMajor_val_one, Shape.rowMajor_val_two]
    show 0 = 0 * 1 + 0
    omega
  · rw [Cert.ReferenceIdeal.Read.val_main_v72_apply, Cert.ReferenceIdeal.Read.val_main_v71_apply]
    exact congrArg b (funext fun a => match a with | ⟨0, _⟩ => rfl)

/-- The rectifier's zero: the scalar zero splat over [512,128] is the reference's broadcast of its zero constant. -/
theorem zeros_eq :
    broadcast (α := Ideal .f32) S512x128 (Scalar.ofBits (F := Ideal) .f32 0x00000000#32)
      = Cert.ReferenceIdeal.Read.val_main_call2_v0 (F := Ideal) := by
  funext j
  rw [Cert.ReferenceIdeal.Read.val_main_call2_v0_apply, Cert.ReferenceIdeal.Read.val_main_call2_cst_apply]
  rfl

end Cert.KernelIdeal.RegionValue.Pr
end
-- ==== Proof.PrMlp.lean ====
import proofs.«138030_j60799557042640_2_alg».proof.Proof.Gen.KernelIdeal.Frame
import proofs.«138030_j60799557042640_2_alg».proof.Proof.Gen.ReferenceIdeal.Read
import proofs.«138030_j60799557042640_2_alg».proof.Proof.PrOps

noncomputable section

namespace Cert.KernelIdeal.RegionValue.Pr

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The reference's three-layer perceptron on a [512,128] input `x`:
    `max(max(x·w1 + b1, 0)·w2 + b2, 0)·w3 + b3`, each product the host's contraction, each bias the reference's
    broadcast of the bias vector, each zero the reference's broadcast zero. -/
def refMlp (x : (⟨Cert.ReferenceIdeal.S512x128, .f32⟩ : BufTy).Contents (Elt Ideal))
    (w1 : (⟨Cert.ReferenceIdeal.S128x128, .f32⟩ : BufTy).Contents (Elt Ideal)) (b1 : (⟨Cert.ReferenceIdeal.S128, .f32⟩ : BufTy).Contents (Elt Ideal))
    (w2 : (⟨Cert.ReferenceIdeal.S128x128, .f32⟩ : BufTy).Contents (Elt Ideal)) (b2 : (⟨Cert.ReferenceIdeal.S128, .f32⟩ : BufTy).Contents (Elt Ideal))
    (w3 : (⟨Cert.ReferenceIdeal.S128x1, .f32⟩ : BufTy).Contents (Elt Ideal)) (b3 : (⟨Cert.ReferenceIdeal.S1, .f32⟩ : BufTy).Contents (Elt Ideal)) :
    (⟨Cert.ReferenceIdeal.S512x1, .f32⟩ : BufTy).Contents (Elt Ideal) :=
  addf (F := Ideal)
    (Host.dotGeneral (F := Ideal) (φ₁ := .f32) (φ₂ := .f32) Cert.ReferenceIdeal.dot_S512x128_S128x1_S512x1_1_0_0_1_n_n none
      (maximumf (F := Ideal)
        (addf (F := Ideal)
          (Host.dotGeneral (F := Ideal) (φ₁ := .f32) (φ₂ := .f32) Cert.ReferenceIdeal.dot_S512x128_S128x128_S512x128_1_0_0_1_n_n none
            (maximumf (F := Ideal)
              (addf (F := Ideal)
                (Host.dotGeneral (F := Ideal) (φ₁ := .f32) (φ₂ := .f32) Cert.ReferenceIdeal.dot_S512x128_S128x128_S512x128_1_0_0_1_n_n none x w1)
                (Cert.ReferenceIdeal.Read.val_main_v62 (F := Ideal) b1))
              (Cert.ReferenceIdeal.Read.val_main_call2_v0 (F := Ideal)))
            w2)
          (Cert.ReferenceIdeal.Read.val_main_v62 (F := Ideal) b2))
        (Cert.ReferenceIdeal.Read.val_main_call2_v0 (F := Ideal)))
      w3)
    (Cert.ReferenceIdeal.Read.val_main_v72 (F := Ideal) b3)

/-- The body's perceptron (three tile products into zero, row-broadcast biases, rectifiers against the zero splat)
    on an input `x` is the reference's, operation by operation. -/
theorem mlp_eq (w1 w2 : FVec Ideal S128x128 .bf16) (w3 : FVec Ideal S128x1 .bf16)
    (b1 b2 : (⟨S128, .f32⟩ : BufTy).Contents (Elt Ideal)) (b3 : (⟨S1, .f32⟩ : BufTy).Contents (Elt Ideal))
    (x : FVec Ideal S512x128 .bf16) :
    k3_pay1 (F := Ideal) w1 w2 w3
      (shapeCast S1x128 (shapeCast S1x128 b1 shapeCasts_S128_S1x128) shapeCasts_S1x128_S1x128)
      (shapeCast S1x128 (shapeCast S1x128 b2 shapeCasts_S128_S1x128) shapeCasts_S1x128_S1x128)
      (shapeCast S1x1 (shapeCast S1x1 b3 shapeCasts_S1_S1x1) shapeCasts_S1x1_S1x1) x
    = refMlp x w1 b1 w2 b2 w3 b3 := by
  unfold k3_pay1 refMlp
  simp only [truncf_id, matmul_zero_eq_dot, matmul_zero_eq_dot_col, zeros_eq]
  rw [row_bias_eq b1, row_bias_eq b2, col_bias_eq b3]

/-- The product of the first row block of a [1536,128] array with the row block at offset 512 or 1024, spelt with
    the reference's slices. -/
def refProd1 (y : (⟨Cert.ReferenceIdeal.S1536x128, .f32⟩ : BufTy).Contents (Elt Ideal)) : (⟨Cert.ReferenceIdeal.S512x128, .f32⟩ : BufTy).Contents (Elt Ideal) :=
  mulf (F := Ideal) (φ := .f32) (extractStridedSlice Cert.ReferenceIdeal.S512x128 ![0, 0] y Cert.ReferenceIdeal.Gen.slices_S1536x128_S512x128_0_0)
    (extractStridedSlice Cert.ReferenceIdeal.S512x128 ![512, 0] y Cert.ReferenceIdeal.Gen.slices_S1536x128_S512x128_512_0)
def refProd2 (y : (⟨Cert.ReferenceIdeal.S1536x128, .f32⟩ : BufTy).Contents (Elt Ideal)) : (⟨Cert.ReferenceIdeal.S512x128, .f32⟩ : BufTy).Contents (Elt Ideal) :=
  mulf (F := Ideal) (φ := .f32) (extractStridedSlice Cert.ReferenceIdeal.S512x128 ![0, 0] y Cert.ReferenceIdeal.Gen.slices_S1536x128_S512x128_0_0)
    (extractStridedSlice Cert.ReferenceIdeal.S512x128 ![1024, 0] y Cert.ReferenceIdeal.Gen.slices_S1536x128_S512x128_1024_0)

/-- The first output's payload is the body's perceptron on the product of the first two row blocks. -/
theorem pay10_eq (v0 : Vec Ideal S1536x128 .f32) (v5 v7 : Vec Ideal S128x128 .f32) (v9 : Vec Ideal S128x1 .f32)
    (v11 v13 : Vec Ideal S1x128 .f32) (v15 : Vec Ideal S1x1 .f32) :
    k3_pay10 (F := Ideal) v0 v5 v7 v9 v11 v13 v15
      = k3_pay1 (F := Ideal) (k3_pay4 v5) (k3_pay5 v7) (k3_pay6 v9) (k3_pay7 v11) (k3_pay8 v13) (k3_pay9 v15)
          (truncf .bf16 (mulf (k3_pay3 v0) (extractStridedSlice S512x128 ![512, 0] (k3_pay2 v0) slices_S1536x128_o512_0_S512x128)) bitsLt_bf16_f32) := rfl

/-- The reference's first result is its perceptron on the product of the first two row blocks of the layer output. -/
theorem ref_v73_eq (x0 : (⟨Cert.ReferenceIdeal.S1119744x128, .f32⟩ : BufTy).Contents (Elt Ideal)) (x1 : (⟨Cert.ReferenceIdeal.S995328, .i32⟩ : BufTy).Contents (Elt Ideal)) (x2 : (⟨Cert.ReferenceIdeal.S110592, .i32⟩ : BufTy).Contents (Elt Ideal)) (x3 : (⟨Cert.ReferenceIdeal.S12288, .i32⟩ : BufTy).Contents (Elt Ideal))
    (x4 x5 : (⟨Cert.ReferenceIdeal.S128x128, .f32⟩ : BufTy).Contents (Elt Ideal)) (x6 : (⟨Cert.ReferenceIdeal.S128, .f32⟩ : BufTy).Contents (Elt Ideal)) (x7 x8 : (⟨Cert.ReferenceIdeal.S128x128, .f32⟩ : BufTy).Contents (Elt Ideal)) (x9 : (⟨Cert.ReferenceIdeal.S128, .f32⟩ : BufTy).Contents (Elt Ideal))
    (x10 x11 : (⟨Cert.ReferenceIdeal.S128x128, .f32⟩ : BufTy).Contents (Elt Ideal)) (x12 : (⟨Cert.ReferenceIdeal.S128, .f32⟩ : BufTy).Contents (Elt Ideal))
    (x13 : (⟨Cert.ReferenceIdeal.S128x128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal))
    (x17 : (⟨Cert.ReferenceIdeal.S128x1, .f32⟩ : BufTy).Contents (Elt Ideal)) (x18 : (⟨Cert.ReferenceIdeal.S1, .f32⟩ : BufTy).Contents (Elt Ideal)) :
    Cert.ReferenceIdeal.Read.val_main_v73 (F := Ideal) x0 x1 x2 x3 x4 x5 x6 x7 x8 x9 x10 x11 x12 x13 x14 x15 x16 x17 x18
      = refMlp (refProd1 (Cert.ReferenceIdeal.Read.val_main_v55 (F := Ideal) x0 x1 x2 x3 x4 x5 x6 x7 x8 x9 x10 x11 x12)) x13 x14 x15 x16 x17 x18 := rfl

/-- The reference's second result is its perceptron on the product of the first and third row blocks. -/
theorem ref_v88_eq (x0 : (⟨Cert.ReferenceIdeal.S1119744x128, .f32⟩ : BufTy).Contents (Elt Ideal)) (x1 : (⟨Cert.ReferenceIdeal.S995328, .i32⟩ : BufTy).Contents (Elt Ideal)) (x2 : (⟨Cert.ReferenceIdeal.S110592, .i32⟩ : BufTy).Contents (Elt Ideal)) (x3 : (⟨Cert.ReferenceIdeal.S12288, .i32⟩ : BufTy).Contents (Elt Ideal))
    (x4 x5 : (⟨Cert.ReferenceIdeal.S128x128, .f32⟩ : BufTy).Contents (Elt Ideal)) (x6 : (⟨Cert.ReferenceIdeal.S128, .f32⟩ : BufTy).Contents (Elt Ideal)) (x7 x8 : (⟨Cert.ReferenceIdeal.S128x128, .f32⟩ : BufTy).Contents (Elt Ideal)) (x9 : (⟨Cert.ReferenceIdeal.S128, .f32⟩ : BufTy).Contents (Elt Ideal))
    (x10 x11 : (⟨Cert.ReferenceIdeal.S128x128, .f32⟩ : BufTy).Contents (Elt Ideal)) (x12 : (⟨Cert.ReferenceIdeal.S128, .f32⟩ : BufTy).Contents (Elt Ideal))
    (x13 : (⟨Cert.ReferenceIdeal.S128x128, .f32⟩ : BufTy).Contents (Elt Ideal)) (x14 : (⟨Cert.ReferenceIdeal.S128, .f32⟩ : BufTy).Contents (Elt Ideal)) (x15 : (⟨Cert.ReferenceIdeal.S128x128, .f32⟩ : BufTy).Contents (Elt Ideal)) (x16 : (⟨Cert.ReferenceIdeal.S128, .f32⟩ : BufTy).Contents (Elt Ideal))
    (x17 : (⟨Cert.ReferenceIdeal.S128x1, .f32⟩ : BufTy).Contents (Elt Ideal)) (x18 : (⟨Cert.ReferenceIdeal.S1, .f32⟩ : BufTy).Contents (Elt Ideal)) :
    Cert.ReferenceIdeal.Read.val_main_v88 (F := Ideal) x0 x1 x2 x3 x4 x5 x6 x7 x8 x9 x10 x11 x12 x13 x14 x15 x16 x17 x18
      = refMlp (refProd2 (Cert.ReferenceIdeal.Read.val_main_v55 (F := Ideal) x0 x1 x2 x3 x4 x5 x6 x7 x8 x9 x10 x11 x12)) x13 x14 x15 x16 x17 x18 := rfl

theorem hz : (![0, 0] : Fin 2 → Nat) = fun _ => 0 := funext fun a => by fin_cases a <;> rfl

/-- What the body leaves in the first output's buffer, from the whole input arrays (the biases as the host's
    casts of the bias vectors): the reference's perceptron on the product of the first two row blocks. -/
theorem out7_eq (y : Vec Ideal S1536x128 .f32) (w1 w2 : Vec Ideal S128x128 .f32) (w3 : Vec Ideal S128x1 .f32)
    (b1 b2 : (⟨S128, .f32⟩ : BufTy).Contents (Elt Ideal)) (b3 : (⟨S1, .f32⟩ : BufTy).Contents (Elt Ideal)) :
    out3_7 (F := Ideal) y w1 (shapeCast S1x128 b1 shapeCasts_S128_S1x128) w2 (shapeCast S1x128 b2 shapeCasts_S128_S1x128) w3 (shapeCast S1x1 b3 shapeCasts_S1_S1x1)
      = refMlp (refProd1 y) w1 b1 w2 b2 w3 b3 := by
  unfold out3_7
  rw [View.canon_unit_zero hz]
  simp only [View.ld_unit_zero (S := S1536x128) hz, View.ld_unit_zero (S := S128x128) hz, View.ld_unit_zero (S := S128x1) hz, View.ld_unit_zero (S := S1x128) hz, View.ld_unit_zero (S := S1x1) hz]
  rw [pay10_eq]
  unfold k3_pay4 k3_pay5 k3_pay6 k3_pay7 k3_pay8 k3_pay9 k3_pay3 k3_pay2
  simp only [truncf_id]
  rw [shapeCast_self y]
  exact mlp_eq w1 w2 w3 b1 b2 b3 _

/-- The same for the second output: the product of the first and third row blocks. -/
theorem out8_eq (y : Vec Ideal S1536x128 .f32) (w1 w2 : Vec Ideal S128x128 .f32) (w3 : Vec Ideal S128x1 .f32)
    (b1 b2 : (⟨S128, .f32⟩ : BufTy).Contents (Elt Ideal)) (b3 : (⟨S1, .f32⟩ : BufTy).Contents (Elt Ideal)) :
    out3_8 (F := Ideal) y w1 (shapeCast S1x128 b1 shapeCasts_S128_S1x128) w2 (shapeCast S1x128 b2 shapeCasts_S128_S1x128) w3 (shapeCast S1x1 b3 shapeCasts_S1_S1x1)
      = refMlp (refProd2 y) w1 b1 w2 b2 w3 b3 := by
  unfold out3_8
  rw [View.canon_unit_zero hz]
  simp only [View.ld_unit_zero (S := S1536x128) hz, View.ld_unit_zero (S := S128x128) hz, View.ld_unit_zero (S := S128x1) hz, View.ld_unit_zero (S := S1x128) hz, View.ld_unit_zero (S := S1x1) hz]
  unfold k3_pay4 k3_pay5 k3_pay6 k3_pay7 k3_pay8 k3_pay9 k3_pay11 k3_pay3 k3_pay2
  simp only [truncf_id]
  rw [shapeCast_self y]
  exact mlp_eq w1 w2 w3 b1 b2 b3 _

end Cert.KernelIdeal.RegionValue.Pr
end
-- ==== Proof.Pr.lean ====
import proofs.«138030_j60799557042640_2_alg».proof.Proof.Gen.KernelIdeal.Frame
import proofs.«138030_j60799557042640_2_alg».proof.Proof.Gen.ReferenceIdeal.Read
import proofs.«138030_j60799557042640_2_alg».proof.Proof.PrMlp

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

namespace Pr

/-! Every window of the predictor is its whole array and the grid has one point: that point's block, read off
    the array, is the array. -/

theorem iblk_0 (c : Dev nD) (t : Fin cfg3.N) :
    (iblk3 (F := Ideal) V c 0 t : Vec Ideal S1536x128 .f32) = (V c main_v32 : S1536x128.Idx → Elt Ideal .f32) := by
  obtain rfl := fin_N3 t
  have hz' : (fun a => win3_0.index t3_0 a * main_v32.ty.shape.size a) = fun _ => 0 := funext fun a => by fin_cases a <;> decide
  exact Memref.read_access_unit_zero (Elt Ideal) main_v32 hz' (fun a => by rw [congrFun hz' a]; simp) (V c main_v32)

theorem iblk_1 (c : Dev nD) (t : Fin cfg3.N) :
    (iblk3 (F := Ideal) V c 1 t : Vec Ideal S128x128 .f32) = (V c main_arg13 : S128x128.Idx → Elt Ideal .f32) := by
  obtain rfl := fin_N3 t
  have hz' : (fun a => win3_1.index t3_0 a * main_arg13.ty.shape.size a) = fun _ => 0 := funext fun a => by fin_cases a <;> decide
  exact Memref.read_access_unit_zero (Elt Ideal) main_arg13 hz' (fun a => by rw [congrFun hz' a]; simp) (V c main_arg13)

theorem iblk_2 (c : Dev nD) (t : Fin cfg3.N) :
    (iblk3 (F := Ideal) V c 2 t : Vec Ideal S1x128 .f32) = (V c main_v33 : S1x128.Idx → Elt Ideal .f32) := by
  obtain rfl := fin_N3 t
  have hz' : (fun a => win3_2.index t3_0 a * main_v33.ty.shape.size a) = fun _ => 0 := funext fun a => by fin_cases a <;> decide
  exact Memref.read_access_unit_zero (Elt Ideal) main_v33 hz' (fun a => by rw [congrFun hz' a]; simp) (V c main_v33)

theorem iblk_3 (c : Dev nD) (t : Fin cfg3.N) :
    (iblk3 (F := Ideal) V c 3 t : Vec Ideal S128x128 .f32) = (V c main_arg15 : S128x128.Idx → Elt Ideal .f32) := by
  obtain rfl := fin_N3 t
  have hz' : (fun a => win3_3.index t3_0 a * main_arg15.ty.shape.size a) = fun _ => 0 := funext fun a => by fin_cases a <;> decide
  exact Memref.read_access_unit_zero (Elt Ideal) main_arg15 hz' (fun a => by rw [congrFun hz' a]; simp) (V c main_arg15)

theorem iblk_4 (c : Dev nD) (t : Fin cfg3.N) :
    (iblk3 (F := Ideal) V c 4 t : Vec Ideal S1x128 .f32) = (V c main_v34 : S1x128.Idx → Elt Ideal .f32) := by
  obtain rfl := fin_N3 t
  have hz' : (fun a => win3_4.index t3_0 a * main_v34.ty.shape.size a) = fun _ => 0 := funext fun a => by fin_cases a <;> decide
  exact Memref.read_access_unit_zero (Elt Ideal) main_v34 hz' (fun a => by rw [congrFun hz' a]; simp) (V c main_v34)

theorem iblk_5 (c : Dev nD) (t : Fin cfg3.N) :
    (iblk3 (F := Ideal) V c 5 t : Vec Ideal S128x1 .f32) = (V c main_arg17 : S128x1.Idx → Elt Ideal .f32) := by
  obtain rfl := fin_N3 t
  have hz' : (fun a => win3_5.index t3_0 a * main_arg17.ty.shape.size a) = fun _ => 0 := funext fun a => by fin_cases a <;> decide
  exact Memref.read_access_unit_zero (Elt Ideal) main_arg17 hz' (fun a => by rw [congrFun hz' a]; simp) (V c main_arg17)

theorem iblk_6 (c : Dev nD) (t : Fin cfg3.N) :
    (iblk3 (F := Ideal) V c 6 t : Vec Ideal S1x1 .f32) = (V c main_v35 : S1x1.Idx → Elt Ideal .f32) := by
  obtain rfl := fin_N3 t
  have hz' : (fun a => win3_6.index t3_0 a * main_v35.ty.shape.size a) = fun _ => 0 := funext fun a => by fin_cases a <;> decide
  exact Memref.read_access_unit_zero (Elt Ideal) main_v35 hz' (fun a => by rw [congrFun hz' a]; simp) (V c main_v35)

/-- What the one point writes back to output window 7 is the reference's stage read through the window's block. -/
theorem flushed_7 (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal))
    (x17 : (⟨S128x1, .f32⟩ : BufTy).Contents (Elt Ideal)) (x18 : (⟨S1, .f32⟩ : BufTy).Contents (Elt Ideal))
    (h0 : V c main_v32 = Cert.ReferenceIdeal.Read.val_main_v55 x0 x1 x2 x3 x4 x5 x6 x7 x8 x9 x10 x11 x12)
    (h1 : V c main_arg13 = x13) (h2 : V c main_v33 = shapeCast S1x128 x14 shapeCasts_S128_S1x128)
    (h3 : V c main_arg15 = x15) (h4 : V c main_v34 = shapeCast S1x128 x16 shapeCasts_S128_S1x128)
    (h5 : V c main_arg17 = x17) (h6 : V c main_v35 = shapeCast S1x1 x18 shapeCasts_S1_S1x1) (t : Fin cfg3.N) :
    (dat3 (F := Ideal) V c).flushed 7 t = ((cfg3.win 7).blk t).view.read (Elt Ideal) (Cert.ReferenceIdeal.Read.val_main_v73 x0 x1 x2 x3 x4 x5 x6 x7 x8 x9 x10 x11 x12 x13 x14 x15 x16 x17 x18) := by
  show (cfg3.win 7).cut (grid3.coords t) ((dat3 (F := Ideal) V c).after 7 t) = _
  rw [after3_7, iblk_0 V c t, iblk_1 V c t, iblk_2 V c t, iblk_3 V c t, iblk_4 V c t, iblk_5 V c t, iblk_6 V c t,
    h0, h1, h2, h3, h4, h5, h6, out7_eq, ← ref_v73_eq]
  obtain rfl := fin_N3 t
  have hz' : (fun a => win3_7.index t3_0 a * main_v36_0.ty.shape.size a) = fun _ => 0 := funext fun a => by fin_cases a <;> decide
  exact (Memref.read_access_unit_zero (Elt Ideal) main_v36_0 hz' (fun a => by rw [congrFun hz' a]; simp) _).symm

/-- What the one point writes back to output window 8 is the reference's stage read through the window's block. -/
theorem flushed_8 (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal))
    (x17 : (⟨S128x1, .f32⟩ : BufTy).Contents (Elt Ideal)) (x18 : (⟨S1, .f32⟩ : BufTy).Contents (Elt Ideal))
    (h0 : V c main_v32 = Cert.ReferenceIdeal.Read.val_main_v55 x0 x1 x2 x3 x4 x5 x6 x7 x8 x9 x10 x11 x12)
    (h1 : V c main_arg13 = x13) (h2 : V c main_v33 = shapeCast S1x128 x14 shapeCasts_S128_S1x128)
    (h3 : V c main_arg15 = x15) (h4 : V c main_v34 = shapeCast S1x128 x16 shapeCasts_S128_S1x128)
    (h5 : V c main_arg17 = x17) (h6 : V c main_v35 = shapeCast S1x1 x18 shapeCasts_S1_S1x1) (t : Fin cfg3.N) :
    (dat3 (F := Ideal) V c).flushed 8 t = ((cfg3.win 8).blk t).view.read (Elt Ideal) (Cert.ReferenceIdeal.Read.val_main_v88 x0 x1 x2 x3 x4 x5 x6 x7 x8 x9 x10 x11 x12 x13 x14 x15 x16 x17 x18) := by
  show (cfg3.win 8).cut (grid3.coords t) ((dat3 (F := Ideal) V c).after 8 t) = _
  rw [after3_8, iblk_0 V c t, iblk_1 V c t, iblk_2 V c t, iblk_3 V c t, iblk_4 V c t, iblk_5 V c t, iblk_6 V c t,
    h0, h1, h2, h3, h4, h5, h6, out8_eq, ← ref_v88_eq]
  obtain rfl := fin_N3 t
  have hz' : (fun a => win3_8.index t3_0 a * main_v36_1.ty.shape.size a) = fun _ => 0 := funext fun a => by fin_cases a <;> decide
  exact (Memref.read_access_unit_zero (Elt Ideal) main_v36_1 hz' (fun a => by rw [congrFun hz' a]; simp) _).symm

/-- The one point's block of output window 7 is the whole [512,1] array. -/
theorem cover_7 (c : Dev nD) (i : ((cfg3.win 7).arr.view.loc (c.tc : Thread nD τ)).2.ty.Idx) :
    ∃ t : Fin cfg3.N, (cfg3.win 7).flush t = true ∧ i ∈ ((cfg3.win 7).blk t).view.set :=
  ⟨t3_0, flush3_7 t3_0, by
    show i ∈ ((View.whole main_v36_0).slice (win3_7.rect t3_0)).set
    rw [View.set_slice_whole, Rect.mem_set_unit]
    intro a
    have h0 : (i 0 : Nat) < 512 := (i 0).isLt
    have h1 : (i 1 : Nat) < 1 := (i 1).isLt
    match a with
    | ⟨0, _⟩ =>
      show win3_7.index t3_0 0 * win3_7.size 0 ≤ (i 0 : Nat) ∧ (i 0 : Nat) < win3_7.index t3_0 0 * win3_7.size 0 + win3_7.xsize (grid3.coords t3_0) 0
      rw [show win3_7.index t3_0 0 * win3_7.size 0 = 0 from by decide +kernel, show win3_7.xsize (grid3.coords t3_0) 0 = 512 from by decide +kernel]; omega
    | ⟨1, _⟩ =>
      show win3_7.index t3_0 1 * win3_7.size 1 ≤ (i 1 : Nat) ∧ (i 1 : Nat) < win3_7.index t3_0 1 * win3_7.size 1 + win3_7.xsize (grid3.coords t3_0) 1
      rw [show win3_7.index t3_0 1 * win3_7.size 1 = 0 from by decide +kernel, show win3_7.xsize (grid3.coords t3_0) 1 = 1 from by decide +kernel]; omega⟩

/-- The one point's block of output window 8 is the whole [512,1] array. -/
theorem cover_8 (c : Dev nD) (i : ((cfg3.win 8).arr.view.loc (c.tc : Thread nD τ)).2.ty.Idx) :
    ∃ t : Fin cfg3.N, (cfg3.win 8).flush t = true ∧ i ∈ ((cfg3.win 8).blk t).view.set :=
  ⟨t3_0, flush3_8 t3_0, by
    show i ∈ ((View.whole main_v36_1).slice (win3_8.rect t3_0)).set
    rw [View.set_slice_whole, Rect.mem_set_unit]
    intro a
    have h0 : (i 0 : Nat) < 512 := (i 0).isLt
    have h1 : (i 1 : Nat) < 1 := (i 1).isLt
    match a with
    | ⟨0, _⟩ =>
      show win3_8.index t3_0 0 * win3_8.size 0 ≤ (i 0 : Nat) ∧ (i 0 : Nat) < win3_8.index t3_0 0 * win3_8.size 0 + win3_8.xsize (grid3.coords t3_0) 0
      rw [show win3_8.index t3_0 0 * win3_8.size 0 = 0 from by decide +kernel, show win3_8.xsize (grid3.coords t3_0) 0 = 512 from by decide +kernel]; omega
    | ⟨1, _⟩ =>
      show win3_8.index t3_0 1 * win3_8.size 1 ≤ (i 1 : Nat) ∧ (i 1 : Nat) < win3_8.index t3_0 1 * win3_8.size 1 + win3_8.xsize (grid3.coords t3_0) 1
      rw [show win3_8.index t3_0 1 * win3_8.size 1 = 0 from by decide +kernel, show win3_8.xsize (grid3.coords t3_0) 1 = 1 from by decide +kernel]; omega⟩

end Pr

/-- The predictor region's two output arrays after the run are the reference's two perceptron stages of the
    layer output and the weights. -/
theorem pred (c : Dev nD) (x0 : (⟨S1119744x128, .f32⟩ : BufTy).Contents (Elt Ideal)) (x1 : (⟨S995328, .i32⟩ : BufTy).Contents (Elt Ideal)) (x2 : (⟨S110592, .i32⟩ : BufTy).Contents (Elt Ideal)) (x3 : (⟨S12288, .i32⟩ : BufTy).Contents (Elt Ideal))
    (x4 x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal))
    (x10 x11 : (⟨S128x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal))
    (x17 : (⟨S128x1, .f32⟩ : BufTy).Contents (Elt Ideal)) (x18 : (⟨S1, .f32⟩ : BufTy).Contents (Elt Ideal))
    (h0 : V c main_v32 = Cert.ReferenceIdeal.Read.val_main_v55 x0 x1 x2 x3 x4 x5 x6 x7 x8 x9 x10 x11 x12)
    (h1 : V c main_arg13 = x13) (h2 : V c main_v33 = shapeCast S1x128 x14 shapeCasts_S128_S1x128)
    (h3 : V c main_arg15 = x15) (h4 : V c main_v34 = shapeCast S1x128 x16 shapeCasts_S128_S1x128)
    (h5 : V c main_arg17 = x17) (h6 : V c main_v35 = shapeCast S1x1 x18 shapeCasts_S1_S1x1) :
    (dat3 (F := Ideal) V c).arrAt 7 cfg3.N = Cert.ReferenceIdeal.Read.val_main_v73 x0 x1 x2 x3 x4 x5 x6 x7 x8 x9 x10 x11 x12 x13 x14 x15 x16 x17 x18
    ∧ (dat3 (F := Ideal) V c).arrAt 8 cfg3.N = Cert.ReferenceIdeal.Read.val_main_v88 x0 x1 x2 x3 x4 x5 x6 x7 x8 x9 x10 x11 x12 x13 x14 x15 x16 x17 x18 :=
  ⟨(dat3 (F := Ideal) V c).arrAt_eq_of_cover 7 _ (fun t _ => Pr.flushed_7 V c x0 x1 x2 x3 x4 x5 x6 x7 x8 x9 x10 x11 x12 x13 x14 x15 x16 x17 x18 h0 h1 h2 h3 h4 h5 h6 t) (Pr.cover_7 c),
   (dat3 (F := Ideal) V c).arrAt_eq_of_cover 8 _ (fun t _ => Pr.flushed_8 V c x0 x1 x2 x3 x4 x5 x6 x7 x8 x9 x10 x11 x12 x13 x14 x15 x16 x17 x18 h0 h1 h2 h3 h4 h5 h6 t) (Pr.cover_8 c)⟩

end Cert.KernelIdeal.RegionValue
end
-- ==== Proof.HostChain.lean ====
/-
  The buffer contents at each region's entry, read back as the reference's stage functions.

  Between two kernel regions the program applies host operations to the buffers: it normalises the edge
  indices (a negative index is shifted by the source extent), gathers the source rows, reshapes them to
  [rows, 8, 128], slices the first rows of the source as the self features, and reshapes the bias to a
  row.  The reference applies the same operations to the same operands, so each window's array at a
  region's entry is, by unfolding, the reference's stage function of the arguments — once the previous
  region's output array is known to be the reference's stage (the four region lemmas), and since no host
  operation and no region writes an argument, which therefore reads as launched at every boundary.
  Chaining the four regions gives the two result arrays as the reference's two result stages.
-/
import proofs.«138030_j60799557042640_2_alg».proof.Proof.Gen.KernelIdeal.Frame
import proofs.«138030_j60799557042640_2_alg».proof.Proof.Gen.ReferenceIdeal.Read
import proofs.«138030_j60799557042640_2_alg».proof.Proof.L0
import proofs.«138030_j60799557042640_2_alg».proof.Proof.L1
import proofs.«138030_j60799557042640_2_alg».proof.Proof.L2
import proofs.«138030_j60799557042640_2_alg».proof.Proof.Pr
import Idealize.ShloMosaic.Lib.StableHlo.Run

set_option maxRecDepth 16384

noncomputable section

namespace Cert.KernelIdeal.HostChain

open Cert.KernelIdeal Cert.KernelIdeal.Gen Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## An argument's buffer at every boundary holds its launch contents -/

theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_arg9 : W1 m ρ c (Proc.devRef .tc main_arg9) = m ((c : Thread nD τ).loc main_arg9) := by
  show StableHlo.after hostOps0 (W0 m ρ c) (Proc.devRef .tc main_arg9) = _
  after_results
theorem W1_arg10 : W1 m ρ c (Proc.devRef .tc main_arg10) = m ((c : Thread nD τ).loc main_arg10) := by
  show StableHlo.after hostOps0 (W0 m ρ c) (Proc.devRef .tc main_arg10) = _
  after_results
theorem W1_arg11 : W1 m ρ c (Proc.devRef .tc main_arg11) = m ((c : Thread nD τ).loc main_arg11) := by
  show StableHlo.after hostOps0 (W0 m ρ c) (Proc.devRef .tc main_arg11) = _
  after_results
theorem W1_arg12 : W1 m ρ c (Proc.devRef .tc main_arg12) = m ((c : Thread nD τ).loc main_arg12) := by
  show StableHlo.after hostOps0 (W0 m ρ c) (Proc.devRef .tc main_arg12) = _
  after_results
theorem W1_arg13 : W1 m ρ c (Proc.devRef .tc main_arg13) = m ((c : Thread nD τ).loc main_arg13) := by
  show StableHlo.after hostOps0 (W0 m ρ c) (Proc.devRef .tc main_arg13) = _
  after_results
theorem W1_arg14 : W1 m ρ c (Proc.devRef .tc main_arg14) = m ((c : Thread nD τ).loc main_arg14) := by
  show StableHlo.after hostOps0 (W0 m ρ c) (Proc.devRef .tc main_arg14) = _
  after_results
theorem W1_arg15 : W1 m ρ c (Proc.devRef .tc main_arg15) = m ((c : Thread nD τ).loc main_arg15) := by
  show StableHlo.after hostOps0 (W0 m ρ c) (Proc.devRef .tc main_arg15) = _
  after_results
theorem W1_arg16 : W1 m ρ c (Proc.devRef .tc main_arg16) = m ((c : Thread nD τ).loc main_arg16) := by
  show StableHlo.after hostOps0 (W0 m ρ c) (Proc.devRef .tc main_arg16) = _
  after_results
theorem W1_arg17 : W1 m ρ c (Proc.devRef .tc main_arg17) = m ((c : Thread nD τ).loc main_arg17) := by
  show StableHlo.after hostOps0 (W0 m ρ c) (Proc.devRef .tc main_arg17) = _
  after_results
theorem W1_arg18 : W1 m ρ c (Proc.devRef .tc main_arg18) = m ((c : Thread nD τ).loc main_arg18) := by
  show StableHlo.after hostOps0 (W0 m ρ c) (Proc.devRef .tc main_arg18) = _
  after_results
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)
theorem W2_arg15 : W2 m ρ c (Proc.devRef .tc main_arg15) = m ((c : Thread nD τ).loc main_arg15) :=
  (W2_of_ne m ρ c main_arg15 (by decide)).trans (W1_arg15 m ρ c)
theorem W2_arg16 : W2 m ρ c (Proc.devRef .tc main_arg16) = m ((c : Thread nD τ).loc main_arg16) :=
  (W2_of_ne m ρ c main_arg16 (by decide)).trans (W1_arg16 m ρ c)
theorem W2_arg17 : W2 m ρ c (Proc.devRef .tc main_arg17) = m ((c : Thread nD τ).loc main_arg17) :=
  (W2_of_ne m ρ c main_arg17 (by decide)).trans (W1_arg17 m ρ c)
theorem W2_arg18 : W2 m ρ c (Proc.devRef .tc main_arg18) = m ((c : Thread nD τ).loc main_arg18) :=
  (W2_of_ne m ρ c main_arg18 (by decide)).trans (W1_arg18 m ρ c)
theorem W3_arg3 : W3 m ρ c (Proc.devRef .tc main_arg3) = m ((c : Thread nD τ).loc main_arg3) := by
  show StableHlo.after hostOps1 (W2 m ρ c) (Proc.devRef .tc main_arg3) = _
  after_results
  exact W2_arg3 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg8 : W3 m ρ c (Proc.devRef .tc main_arg8) = m ((c : Thread nD τ).loc main_arg8) := by
  show StableHlo.after hostOps1 (W2 m ρ c) (Proc.devRef .tc main_arg8) = _
  after_results
  exact W2_arg8 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c
theorem W3_arg12 : W3 m ρ c (Proc.devRef .tc main_arg12) = m ((c : Thread nD τ).loc main_arg12) := by
  show StableHlo.after hostOps1 (W2 m ρ c) (Proc.devRef .tc main_arg12) = _
  after_results
  exact W2_arg12 m ρ c
theorem W3_arg13 : W3 m ρ c (Proc.devRef .tc main_arg13) = m ((c : Thread nD τ).loc main_arg13) := by
  show StableHlo.after hostOps1 (W2 m ρ c) (Proc.devRef .tc main_arg13) = _
  after_results
  exact W2_arg13 m ρ c
theorem W3_arg14 : W3 m ρ c (Proc.devRef .tc main_arg14) = m ((c : Thread nD τ).loc main_arg14) := by
  show StableHlo.after hostOps1 (W2 m ρ c) (Proc.devRef .tc main_arg14) = _
  after_results
  exact W2_arg14 m ρ c
theorem W3_arg15 : W3 m ρ c (Proc.devRef .tc main_arg15) = m ((c : Thread nD τ).loc main_arg15) := by
  show StableHlo.after hostOps1 (W2 m ρ c) (Proc.devRef .tc main_arg15) = _
  after_results
  exact W2_arg15 m ρ c
theorem W3_arg16 : W3 m ρ c (Proc.devRef .tc main_arg16) = m ((c : Thread nD τ).loc main_arg16) := by
  show StableHlo.after hostOps1 (W2 m ρ c) (Proc.devRef .tc main_arg16) = _
  after_results
  exact W2_arg16 m ρ c
theorem W3_arg17 : W3 m ρ c (Proc.devRef .tc main_arg17) = m ((c : Thread nD τ).loc main_arg17) := by
  show StableHlo.after hostOps1 (W2 m ρ c) (Proc.devRef .tc main_arg17) = _
  after_results
  exact W2_arg17 m ρ c
theorem W3_arg18 : W3 m ρ c (Proc.devRef .tc main_arg18) = m ((c : Thread nD τ).loc main_arg18) := by
  show StableHlo.after hostOps1 (W2 m ρ c) (Proc.devRef .tc main_arg18) = _
  after_results
  exact W2_arg18 m ρ c
theorem W4_arg3 : W4 m ρ c (Proc.devRef .tc main_arg3) = m ((c : Thread nD τ).loc main_arg3) :=
  (W4_of_ne m ρ c main_arg3 (by decide)).trans (W3_arg3 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_arg16 : W4 m ρ c (Proc.devRef .tc main_arg16) = m ((c : Thread nD τ).loc main_arg16) :=
  (W4_of_ne m ρ c main_arg16 (by decide)).trans (W3_arg16 m ρ c)
theorem W4_arg17 : W4 m ρ c (Proc.devRef .tc main_arg17) = m ((c : Thread nD τ).loc main_arg17) :=
  (W4_of_ne m ρ c main_arg17 (by decide)).trans (W3_arg17 m ρ c)
theorem W4_arg18 : W4 m ρ c (Proc.devRef .tc main_arg18) = m ((c : Thread nD τ).loc main_arg18) :=
  (W4_of_ne m ρ c main_arg18 (by decide)).trans (W3_arg18 m ρ c)
theorem W5_arg10 : W5 m ρ c (Proc.devRef .tc main_arg10) = m ((c : Thread nD τ).loc main_arg10) := by
  show StableHlo.after hostOps2 (W4 m ρ c) (Proc.devRef .tc main_arg10) = _
  after_results
  exact W4_arg10 m ρ c
theorem W5_arg11 : W5 m ρ c (Proc.devRef .tc main_arg11) = m ((c : Thread nD τ).loc main_arg11) := by
  show StableHlo.after hostOps2 (W4 m ρ c) (Proc.devRef .tc main_arg11) = _
  after_results
  exact W4_arg11 m ρ c
theorem W5_arg12 : W5 m ρ c (Proc.devRef .tc main_arg12) = m ((c : Thread nD τ).loc main_arg12) := by
  show StableHlo.after hostOps2 (W4 m ρ c) (Proc.devRef .tc main_arg12) = _
  after_results
  exact W4_arg12 m ρ c
theorem W5_arg13 : W5 m ρ c (Proc.devRef .tc main_arg13) = m ((c : Thread nD τ).loc main_arg13) := by
  show StableHlo.after hostOps2 (W4 m ρ c) (Proc.devRef .tc main_arg13) = _
  after_results
  exact W4_arg13 m ρ c
theorem W5_arg14 : W5 m ρ c (Proc.devRef .tc main_arg14) = m ((c : Thread nD τ).loc main_arg14) := by
  show StableHlo.after hostOps2 (W4 m ρ c) (Proc.devRef .tc main_arg14) = _
  after_results
  exact W4_arg14 m ρ c
theorem W5_arg15 : W5 m ρ c (Proc.devRef .tc main_arg15) = m ((c : Thread nD τ).loc main_arg15) := by
  show StableHlo.after hostOps2 (W4 m ρ c) (Proc.devRef .tc main_arg15) = _
  after_results
  exact W4_arg15 m ρ c
theorem W5_arg16 : W5 m ρ c (Proc.devRef .tc main_arg16) = m ((c : Thread nD τ).loc main_arg16) := by
  show StableHlo.after hostOps2 (W4 m ρ c) (Proc.devRef .tc main_arg16) = _
  after_results
  exact W4_arg16 m ρ c
theorem W5_arg17 : W5 m ρ c (Proc.devRef .tc main_arg17) = m ((c : Thread nD τ).loc main_arg17) := by
  show StableHlo.after hostOps2 (W4 m ρ c) (Proc.devRef .tc main_arg17) = _
  after_results
  exact W4_arg17 m ρ c
theorem W5_arg18 : W5 m ρ c (Proc.devRef .tc main_arg18) = m ((c : Thread nD τ).loc main_arg18) := by
  show StableHlo.after hostOps2 (W4 m ρ c) (Proc.devRef .tc main_arg18) = _
  after_results
  exact W4_arg18 m ρ c
theorem W6_arg13 : W6 m ρ c (Proc.devRef .tc main_arg13) = m ((c : Thread nD τ).loc main_arg13) :=
  (W6_of_ne m ρ c main_arg13 (by decide)).trans (W5_arg13 m ρ c)
theorem W6_arg14 : W6 m ρ c (Proc.devRef .tc main_arg14) = m ((c : Thread nD τ).loc main_arg14) :=
  (W6_of_ne m ρ c main_arg14 (by decide)).trans (W5_arg14 m ρ c)
theorem W6_arg15 : W6 m ρ c (Proc.devRef .tc main_arg15) = m ((c : Thread nD τ).loc main_arg15) :=
  (W6_of_ne m ρ c main_arg15 (by decide)).trans (W5_arg15 m ρ c)
theorem W6_arg16 : W6 m ρ c (Proc.devRef .tc main_arg16) = m ((c : Thread nD τ).loc main_arg16) :=
  (W6_of_ne m ρ c main_arg16 (by decide)).trans (W5_arg16 m ρ c)
theorem W6_arg17 : W6 m ρ c (Proc.devRef .tc main_arg17) = m ((c : Thread nD τ).loc main_arg17) :=
  (W6_of_ne m ρ c main_arg17 (by decide)).trans (W5_arg17 m ρ c)
theorem W6_arg18 : W6 m ρ c (Proc.devRef .tc main_arg18) = m ((c : Thread nD τ).loc main_arg18) :=
  (W6_of_ne m ρ c main_arg18 (by decide)).trans (W5_arg18 m ρ c)
theorem W7_arg13 : W7 m ρ c (Proc.devRef .tc main_arg13) = m ((c : Thread nD τ).loc main_arg13) := by
  show StableHlo.after hostOps3 (W6 m ρ c) (Proc.devRef .tc main_arg13) = _
  after_results
  exact W6_arg13 m ρ c
theorem W7_arg15 : W7 m ρ c (Proc.devRef .tc main_arg15) = m ((c : Thread nD τ).loc main_arg15) := by
  show StableHlo.after hostOps3 (W6 m ρ c) (Proc.devRef .tc main_arg15) = _
  after_results
  exact W6_arg15 m ρ c
theorem W7_arg17 : W7 m ρ c (Proc.devRef .tc main_arg17) = m ((c : Thread nD τ).loc main_arg17) := by
  show StableHlo.after hostOps3 (W6 m ρ c) (Proc.devRef .tc main_arg17) = _
  after_results
  exact W6_arg17 m ρ c

/-! ## Region 0: the first layer -/

/-- The self features: the first 124416 rows of the node features. -/
theorem entry0_self : V1 m ρ c main_v8 = Cert.ReferenceIdeal.Read.val_main_v11 (m ((c : Thread nD τ).loc main_arg0)) := by
  show StableHlo.after hostOps0 (W0 m ρ c) (Proc.devRef .tc main_v8) = _
  after_results
  rfl
/-- The neighbour features: the gathered rows, eight per destination node. -/
theorem entry0_neigh : V1 m ρ c main_v7 = Cert.ReferenceIdeal.Read.val_main_v7 (m ((c : Thread nD τ).loc main_arg0)) (m ((c : Thread nD τ).loc main_arg1)) := by
  show StableHlo.after hostOps0 (W0 m ρ c) (Proc.devRef .tc main_v7) = _
  after_results
  rfl
theorem entry0_ws : V1 m ρ c main_arg4 = m ((c : Thread nD τ).loc main_arg4) := W1_arg4 m ρ c
theorem entry0_wn : V1 m ρ c main_arg5 = m ((c : Thread nD τ).loc main_arg5) := W1_arg5 m ρ c
/-- The bias as a row. -/
theorem entry0_bias : V1 m ρ c main_v9 = shapeCast S1x128 (m ((c : Thread nD τ).loc main_arg6)) shapeCasts_S128_S1x128 := by
  show StableHlo.after hostOps0 (W0 m ρ c) (Proc.devRef .tc main_v9) = _
  after_results
  rfl
/-- After region 0 its output array is the reference's first hidden layer. -/
theorem out0 : W2 m ρ c (Proc.devRef .tc main_v10) = Cert.ReferenceIdeal.Read.val_main_v18 (m ((c : Thread nD τ).loc main_arg0)) (m ((c : Thread nD τ).loc main_arg1)) (m ((c : Thread nD τ).loc main_arg4)) (m ((c : Thread nD τ).loc main_arg5)) (m ((c : Thread nD τ).loc main_arg6)) :=
  (W2_arr m ρ c 5).trans (layer0 (V1 m ρ) c _ _ _ _ _ (entry0_self m ρ c) (entry0_neigh m ρ c) (entry0_ws m ρ c) (entry0_wn m ρ c) (entry0_bias m ρ c))

/-! ## Region 1: the second layer -/

theorem entry1_self : V3 m ρ c main_v19 = Cert.ReferenceIdeal.Read.val_main_v30 (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps1 (W2 m ρ c) (Proc.devRef .tc main_v19) = _
  after_results
  rw [out0 m ρ c]
  rfl
theorem entry1_neigh : V3 m ρ c main_v18 = Cert.ReferenceIdeal.Read.val_main_v26 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps1 (W2 m ρ c) (Proc.devRef .tc main_v18) = _
  after_results
  rw [out0 m ρ c, W2_arg2 m ρ c]
  rfl
theorem entry1_ws : V3 m ρ c main_arg7 = m ((c : Thread nD τ).loc main_arg7) := W3_arg7 m ρ c
theorem entry1_wn : V3 m ρ c main_arg8 = m ((c : Thread nD τ).loc main_arg8) := W3_arg8 m ρ c
theorem entry1_bias : V3 m ρ c main_v20 = shapeCast S1x128 (m ((c : Thread nD τ).loc main_arg9)) shapeCasts_S128_S1x128 := by
  show StableHlo.after hostOps1 (W2 m ρ c) (Proc.devRef .tc main_v20) = _
  after_results
  rw [W2_arg9 m ρ c]
  rfl
/-- After region 1 its output array is the reference's second hidden layer. -/
theorem out1 : W4 m ρ c (Proc.devRef .tc main_v21) = Cert.ReferenceIdeal.Read.val_main_v37 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 5).trans (layer1 (V3 m ρ) c _ _ _ _ _ _ _ _ _ (entry1_self m ρ c) (entry1_neigh m ρ c) (entry1_ws m ρ c) (entry1_wn m ρ c) (entry1_bias m ρ c))

/-! ## Region 2: the third layer -/

theorem entry2_self : V5 m ρ c main_v30 = Cert.ReferenceIdeal.Read.val_main_v49 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v30) = _
  after_results
  rw [out1 m ρ c]
  rfl
theorem entry2_neigh : V5 m ρ c main_v29 = Cert.ReferenceIdeal.Read.val_main_v45 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v29) = _
  after_results
  rw [out1 m ρ c, W4_arg3 m ρ c]
  rfl
theorem entry2_ws : V5 m ρ c main_arg10 = m ((c : Thread nD τ).loc main_arg10) := W5_arg10 m ρ c
theorem entry2_wn : V5 m ρ c main_arg11 = m ((c : Thread nD τ).loc main_arg11) := W5_arg11 m ρ c
theorem entry2_bias : V5 m ρ c main_v31 = shapeCast S1x128 (m ((c : Thread nD τ).loc main_arg12)) shapeCasts_S128_S1x128 := by
  show StableHlo.after hostOps2 (W4 m ρ c) (Proc.devRef .tc main_v31) = _
  after_results
  rw [W4_arg12 m ρ c]
  rfl
/-- After region 2 its output array is the reference's node embedding. -/
theorem out2 : W6 m ρ c (Proc.devRef .tc main_v32) = Cert.ReferenceIdeal.Read.val_main_v55 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W6_arr m ρ c 5).trans (layer2 (V5 m ρ) c _ _ _ _ _ _ _ _ _ _ _ _ _ (entry2_self m ρ c) (entry2_neigh m ρ c) (entry2_ws m ρ c) (entry2_wn m ρ c) (entry2_bias m ρ c))

/-! ## Region 3: the predictor -/

theorem entry3_emb : V7 m ρ c main_v32 = Cert.ReferenceIdeal.Read.val_main_v55 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps3 (W6 m ρ c) (Proc.devRef .tc main_v32) = _
  after_results
  exact out2 m ρ c
theorem entry3_w1 : V7 m ρ c main_arg13 = m ((c : Thread nD τ).loc main_arg13) := W7_arg13 m ρ c
theorem entry3_b1 : V7 m ρ c main_v33 = shapeCast S1x128 (m ((c : Thread nD τ).loc main_arg14)) shapeCasts_S128_S1x128 := by
  show StableHlo.after hostOps3 (W6 m ρ c) (Proc.devRef .tc main_v33) = _
  after_results
  rw [W6_arg14 m ρ c]
  rfl
theorem entry3_w2 : V7 m ρ c main_arg15 = m ((c : Thread nD τ).loc main_arg15) := W7_arg15 m ρ c
theorem entry3_b2 : V7 m ρ c main_v34 = shapeCast S1x128 (m ((c : Thread nD τ).loc main_arg16)) shapeCasts_S128_S1x128 := by
  show StableHlo.after hostOps3 (W6 m ρ c) (Proc.devRef .tc main_v34) = _
  after_results
  rw [W6_arg16 m ρ c]
  rfl
theorem entry3_w3 : V7 m ρ c main_arg17 = m ((c : Thread nD τ).loc main_arg17) := W7_arg17 m ρ c
theorem entry3_b3 : V7 m ρ c main_v35 = shapeCast S1x1 (m ((c : Thread nD τ).loc main_arg18)) shapeCasts_S1_S1x1 := by
  show StableHlo.after hostOps3 (W6 m ρ c) (Proc.devRef .tc main_v35) = _
  after_results
  rw [W6_arg18 m ρ c]
  rfl

/-- After the last region the two result arrays are the reference's two result stages of the arguments. -/
theorem results :
    W8 m ρ c (Proc.devRef .tc main_v36_0) = Cert.ReferenceIdeal.Read.val_main_v73 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    ∧ W8 m ρ c (Proc.devRef .tc main_v36_1) = Cert.ReferenceIdeal.Read.val_main_v88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  have h := pred (V7 m ρ) c _ _ _ _ _ _ _ _ _ _ _ _ _ _ _ _ _ _ _ (entry3_emb m ρ c) (entry3_w1 m ρ c) (entry3_b1 m ρ c) (entry3_w2 m ρ c) (entry3_b2 m ρ c) (entry3_w3 m ρ c) (entry3_b3 m ρ c)
  ⟨(W8_arr m ρ c 7).trans h.1, (W8_arr m ρ c 8).trans h.2⟩

end Cert.KernelIdeal.HostChain

end
-- ==== Proof.Claims.lean ====
/-
  The five claims of the certificate.

  Frames.  The kernel program's frame, at the word level and at the extended reals, is the generated one;
  the reference has no kernel, and its frame is its run with the two results dropped.

  The idealization rewrote no operation, so there is nothing to preserve.

  The values.  Both programs compute three neighbour-averaging layers and a scoring network: a layer's row
  r is  relu( h_self[r] · Ws + (sum of the eight gathered neighbour rows of r) / 8 · Wn + b )  (no relu on the
  third layer), and the scores are a three-matmul network with relu between, applied to the product of the
  source third of the embedding with its positive third and with its negative third.  On the extended
  reals a change of float format is the identity and a matrix product is the same finite sum on both
  sides, so region by region the kernel's output array is the reference's stage function of the same
  arguments; the two runs are then posted at the same two functions of the arguments, which agree.
-/
import proofs.«138030_j60799557042640_2_alg».proof.Defs
import proofs.«138030_j60799557042640_2_alg».proof.Proof.Gen.Kernel.Frame
import proofs.«138030_j60799557042640_2_alg».proof.Proof.Gen.KernelIdeal.Frame
import proofs.«138030_j60799557042640_2_alg».proof.Proof.Gen.ReferenceIdeal.Run
import proofs.«138030_j60799557042640_2_alg».proof.Proof.Gen.ReferenceIdeal.Read
import proofs.«138030_j60799557042640_2_alg».proof.Proof.Gen.Pre_finite_inputs
import proofs.«138030_j60799557042640_2_alg».proof.Proof.ValueRun
import proofs.«138030_j60799557042640_2_alg».proof.Proof.HostChain

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run terminates with every argument unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 2000000 in
/-- From memories that agree on the arguments both programs end with the positive and the negative scores
    at the reference's two result stages of the arguments. -/
theorem algebraic : Cert.algebraic_KernelIdeal_ReferenceIdeal := by
  intro m ρ m' ρ' _ hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.HostChain.results m ρ c).1,
        (h c).2.1.trans (Cert.KernelIdeal.HostChain.results m ρ c).2, (h c).2.2⟩)
      (Cert.KernelIdeal.ValueRun.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12, a13, a14, a15, a16, a17, a18⟩ := hagree c
      rw [Cert.ReferenceIdeal.Read.val_main_v73_eq, a0, a1, a2, a3, a4, a5, a6, a7, a8, a9, a10, a11, a12, a13, a14, a15, a16, a17, a18]
    · obtain ⟨a0, a1, a2, a3, a4, a5, a6, a7, a8, a9, a10, a11, a12, a13, a14, a15, a16, a17, a18⟩ := hagree c
      rw [Cert.ReferenceIdeal.Read.val_main_v88_eq, a0, a1, a2, a3, a4, a5, a6, a7, a8, a9, a10, a11, a12, a13, a14, a15, a16, a17, a18]

end Cert.Proof.Claims

end
-- ==== Proof.lean ====
/-
  The certificate's claim: the conjunction of the three frames, the (empty) idealization statement and the
  equality of the two idealized programs' results, under the witnesses of the programs' stated facts.
  Each conjunct is proved in Proof/Claims.lean; the kernel's value is read region by region
  (Proof/ValueRun.lean, Proof/HostChain.lean and one module per region).
-/
import proofs.«138030_j60799557042640_2_alg».proof.Defs
import proofs.«138030_j60799557042640_2_alg».proof.Proof.Gen.Kernel
import proofs.«138030_j60799557042640_2_alg».proof.Proof.Gen.KernelIdeal
import proofs.«138030_j60799557042640_2_alg».proof.Proof.Gen.ReferenceIdeal
import proofs.«138030_j60799557042640_2_alg».proof.Proof.Gen.Pre_finite_inputs
import proofs.«138030_j60799557042640_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
